-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x512 : Shape := ⟨4, ![4, 8, 2048, 512]⟩
abbrev S_ : Shape := ⟨0, ![]⟩

class Facts : Prop where
  bcast_S_S4x8x2048x512 : S_.BroadcastsInDim S4x8x2048x512 (![] : Fin 0 → Fin S4x8x2048x512.rank)
  reducesTo_S4x8x2048x512_S_d0_1_2_3 : S4x8x2048x512.ReducesTo [0, 1, 2, 3] S_
  h_S_ : 0 < S_.numel

variable [Facts]

def fn {F : FTy → Type} [FloatOps F] (main_arg0 : FVec F S4x8x2048x512 .f32) (main_arg1 : FVec F S4x8x2048x512 .f32) (main_arg2 : FVec F S4x8x2048x512 .f32) : IVec S_ 1 :=
  let main_v0 : FVec F S4x8x2048x512 .f32 := Host.absf main_arg0
  let main_cst : FVec F S_ .f32 := constant S_ .f32 0x7F800000#32
  let main_v1 : FVec F S4x8x2048x512 .f32 := broadcastInDim S4x8x2048x512 ![] bcast_S_S4x8x2048x512 main_cst
  let main_v2 : IVec S4x8x2048x512 1 := cmpf .olt main_v0 main_v1
  let main_c : IVec S_ 1 := constantI S_ 1 1#1
  let main_v3 : IVec S_ 1 := (fun x v => Host.reduce IntOp.andi x v reducesTo_S4x8x2048x512_S_d0_1_2_3 h_S_) main_v2 main_c
  let main_v4 : FVec F S4x8x2048x512 .f32 := Host.absf main_arg1
  let main_cst_0 : FVec F S_ .f32 := constant S_ .f32 0x7F800000#32
  let main_v5 : FVec F S4x8x2048x512 .f32 := broadcastInDim S4x8x2048x512 ![] bcast_S_S4x8x2048x512 main_cst_0
  let main_v6 : IVec S4x8x2048x512 1 := cmpf .olt main_v4 main_v5
  let main_c_1 : IVec S_ 1 := constantI S_ 1 1#1
  let main_v7 : IVec S_ 1 := (fun x v => Host.reduce IntOp.andi x v reducesTo_S4x8x2048x512_S_d0_1_2_3 h_S_) main_v6 main_c_1
  let main_v8 : IVec S_ 1 := andi main_v3 main_v7
  let main_v9 : FVec F S4x8x2048x512 .f32 := Host.absf main_arg2
  let main_cst_2 : FVec F S_ .f32 := constant S_ .f32 0x7F800000#32
  let main_v10 : FVec F S4x8x2048x512 .f32 := broadcastInDim S4x8x2048x512 ![] bcast_S_S4x8x2048x512 main_cst_2
  let main_v11 : IVec S4x8x2048x512 1 := cmpf .olt main_v9 main_v10
  let main_c_3 : IVec S_ 1 := constantI S_ 1 1#1
  let main_v12 : IVec S_ 1 := (fun x v => Host.reduce IntOp.andi x v reducesTo_S4x8x2048x512_S_d0_1_2_3 h_S_) main_v11 main_c_3
  let main_v13 : IVec S_ 1 := andi main_v8 main_v12
  main_v13
-- ==== Kernel.lean ====
abbrev S4x8x2048x512 : Shape := ⟨4, ![4, 8, 2048, 512]⟩
abbrev S4x8x512x2048 : Shape := ⟨4, ![4, 8, 512, 2048]⟩
abbrev S4x8x512x512 : Shape := ⟨4, ![4, 8, 512, 512]⟩
abbrev S1x1x2048x256 : Shape := ⟨4, ![1, 1, 2048, 256]⟩
abbrev S1x1x2048x512 : Shape := ⟨4, ![1, 1, 2048, 512]⟩
abbrev S1x1x256x2048 : Shape := ⟨4, ![1, 1, 256, 2048]⟩
abbrev S1x1x256x512 : Shape := ⟨4, ![1, 1, 256, 512]⟩
abbrev S2048x512 : Shape := ⟨2, ![2048, 512]⟩
abbrev S2048x256 : Shape := ⟨2, ![2048, 256]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 5
  | .vmem => 12
  | .smem => 0
  | _ => 0

abbrev bufTy : (tb : Table) → Fin (tcTables nBuf tb) → BufTy
  | .hbm, ⟨0, _⟩ => ⟨S4x8x2048x512, .f32⟩
  | .hbm, ⟨1, _⟩ => ⟨S4x8x2048x512, .f32⟩
  | .hbm, ⟨2, _⟩ => ⟨S4x8x2048x512, .f32⟩
  | .hbm, ⟨3, _⟩ => ⟨S4x8x512x2048, .f32⟩
  | .hbm, ⟨4, _⟩ => ⟨S4x8x512x512, .f32⟩
  | .local _ .vmem, ⟨0, _⟩ => ⟨S1x1x2048x256, .f32⟩
  | .local _ .vmem, ⟨1, _⟩ => ⟨S1x1x2048x256, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1x256x512, .f32⟩
  | .local _ .vmem, ⟨9, _⟩ => ⟨S1x1x256x512, .f32⟩
  | .local _ .vmem, ⟨10, _⟩ => ⟨S2048x512, .bf16⟩
  | .local _ .vmem, ⟨11, _⟩ => ⟨S2048x512, .bf16⟩
  | _, _ => ⟨S4x8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x2048x512_S1x1x2048x512_0_0_0_0 : ∀ a, (![0, 0, 0, 0] : Fin 4 → Nat) a + S1x1x2048x512.size a ≤ S1x1x2048x512.size a
  h_S1x1x2048x512 : 0 < S1x1x2048x512.numel
  shapeCasts_S1x1x2048x512_S2048x512 : S1x1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x1x2048x256_S1x1x2048x256_0_0_0_0 : ∀ a, (![0, 0, 0, 0] : Fin 4 → Nat) a + S1x1x2048x256.size a ≤ S1x1x2048x256.size a
  h_S1x1x2048x256 : 0 < S1x1x2048x256.numel
  shapeCasts_S1x1x2048x256_S2048x256 : S1x1x2048x256.ShapeCasts S2048x256
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  shapeCasts_S256x512_S1x1x256x512 : S256x512.ShapeCasts S1x1x256x512
  reduces_S256x512_S256 : S256x512.Reduces [1] S256
  shapeCasts_S256_S256x1 : S256.ShapeCasts S256x1
  broadcasts_S256x1_S256x512 : S256x1.Broadcasts S256x512
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  dot_S2048x256_S2048x512_S256x512_0_0_1_1_n_n_wf : DotDims.WF S2048x256 S2048x512 S256x512 [0] [0] [1] [1] [] []
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x256.size a ≤ S4x8x2048x512.size a
  hwx0_0 : ∀ i : grid0.Coords, EltTy.bits .f32 = 32 ∨ (Rect.block (s := S4x8x2048x512) S1x1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x512.size a ≤ S4x8x2048x512.size a
  hwx0_1 : ∀ i : grid0.Coords, EltTy.bits .f32 = 32 ∨ (Rect.block (s := S4x8x2048x512) S1x1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x512.size a ≤ S4x8x2048x512.size a
  hwx0_2 : ∀ i : grid0.Coords, EltTy.bits .f32 = 32 ∨ (Rect.block (s := S4x8x2048x512) S1x1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x8x512x2048.size a
  hwx0_3 : ∀ i : grid0.Coords, EltTy.bits .f32 = 32 ∨ (Rect.block (s := S4x8x512x2048) S1x1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x512.size a ≤ S4x8x512x512.size a
  hwx0_4 : ∀ i : grid0.Coords, EltTy.bits .f32 = 32 ∨ (Rect.block (s := S4x8x512x512) S1x1x256x512.size (cc0_transform_4 i) (hinb0_4 i)).WholeWords (EltTy.packing .f32)

variable [Facts₀]

def dot_S2048x256_S2048x512_S256x512_0_0_1_1_n_n : DotDims S2048x256 S2048x512 S256x512 where
  lhsContracting := [0]
  rhsContracting := [0]
  lhsNonContracting := [1]
  rhsNonContracting := [1]
  lhsBatch := []
  rhsBatch := []
  wf := dot_S2048x256_S2048x512_S256x512_0_0_1_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S1x1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x2048x512 : Shape := ⟨4, ![4, 8, 2048, 512]⟩
abbrev S4x8x512x512 : Shape := ⟨4, ![4, 8, 512, 512]⟩
abbrev S_ : Shape := ⟨0, ![]⟩
abbrev S4x8x512 : Shape := ⟨3, ![4, 8, 512]⟩
abbrev S4x8x512x1 : Shape := ⟨4, ![4, 8, 512, 1]⟩
abbrev S4x8x512x2048 : Shape := ⟨4, ![4, 8, 512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8x2048x512, .f32⟩
  | .hbm, ⟨1, _⟩ => ⟨S4x8x2048x512, .f32⟩
  | .hbm, ⟨2, _⟩ => ⟨S4x8x2048x512, .f32⟩
  | .hbm, ⟨3, _⟩ => ⟨S4x8x512x512, .f32⟩
  | .hbm, ⟨4, _⟩ => ⟨S_, .f32⟩
  | .hbm, ⟨5, _⟩ => ⟨S4x8x512x512, .f32⟩
  | .hbm, ⟨6, _⟩ => ⟨S4x8x512x512, .f32⟩
  | .hbm, ⟨7, _⟩ => ⟨S_, .f32⟩
  | .hbm, ⟨8, _⟩ => ⟨S4x8x512, .f32⟩
  | .hbm, ⟨9, _⟩ => ⟨S_, .f32⟩
  | .hbm, ⟨10, _⟩ => ⟨S4x8x512, .f32⟩
  | .hbm, ⟨11, _⟩ => ⟨S4x8x512, .f32⟩
  | .hbm, ⟨12, _⟩ => ⟨S4x8x512x1, .f32⟩
  | .hbm, ⟨13, _⟩ => ⟨S4x8x512x512, .f32⟩
  | .hbm, ⟨14, _⟩ => ⟨S4x8x512x512, .f32⟩
  | .hbm, ⟨15, _⟩ => ⟨S4x8x512x512, .f32⟩
  | .hbm, ⟨16, _⟩ => ⟨S_, .f32⟩
  | .hbm, ⟨17, _⟩ => ⟨S4x8x512, .f32⟩
  | .hbm, ⟨18, _⟩ => ⟨S4x8x512x1, .f32⟩
  | .hbm, ⟨19, _⟩ => ⟨S4x8x512x512, .f32⟩
  | .hbm, ⟨20, _⟩ => ⟨S4x8x512x512, .f32⟩
  | .hbm, ⟨21, _⟩ => ⟨S4x8x512x2048, .f32⟩
  | _, _ => ⟨S4x8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x8x512x512 : S_.BroadcastsInDim S4x8x512x512 (![] : Fin 0 → Fin S4x8x512x512.rank)
  reducesTo_S4x8x512x512_S4x8x512_d3 : S4x8x512x512.ReducesTo [3] S4x8x512
  h_S_ : 0 < S_.numel
  bcast_S_S4x8x512 : S_.BroadcastsInDim S4x8x512 (![] : Fin 0 → Fin S4x8x512.rank)
  bcast_S4x8x512_S4x8x512x1_0_1_2 : S4x8x512.BroadcastsInDim S4x8x512x1 (![0, 1, 2] : Fin 3 → Fin S4x8x512x1.rank)
  bcast_S4x8x512x1_S4x8x512x512_0_1_2_3 : S4x8x512x1.BroadcastsInDim S4x8x512x512 (![0, 1, 2, 3] : Fin 4 → Fin S4x8x512x512.rank)
  dot_S4x8x2048x512_S4x8x2048x512_S4x8x512x512_2_2_3_3_01_01_wf : DotDims.WF S4x8x2048x512 S4x8x2048x512 S4x8x512x512 [2] [2] [3] [3] [0, 1] [0, 1]
  dot_S4x8x512x512_S4x8x2048x512_S4x8x512x2048_3_3_2_2_01_01_wf : DotDims.WF S4x8x512x512 S4x8x2048x512 S4x8x512x2048 [3] [3] [2] [2] [0, 1] [0, 1]

variable [Facts₀]

def dot_S4x8x2048x512_S4x8x2048x512_S4x8x512x512_2_2_3_3_01_01 : DotDims S4x8x2048x512 S4x8x2048x512 S4x8x512x512 where
  lhsContracting := [2]
  rhsContracting := [2]
  lhsNonContracting := [3]
  rhsNonContracting := [3]
  lhsBatch := [0, 1]
  rhsBatch := [0, 1]
  wf := dot_S4x8x2048x512_S4x8x2048x512_S4x8x512x512_2_2_3_3_01_01_wf
def dot_S4x8x512x512_S4x8x2048x512_S4x8x512x2048_3_3_2_2_01_01 : DotDims S4x8x512x512 S4x8x2048x512 S4x8x512x2048 where
  lhsContracting := [3]
  rhsContracting := [3]
  lhsNonContracting := [2]
  rhsNonContracting := [2]
  lhsBatch := [0, 1]
  rhsBatch := [0, 1]
  wf := dot_S4x8x512x512_S4x8x2048x512_S4x8x512x2048_3_3_2_2_01_01_wf

class Facts : Prop extends Facts₀ where

variable [Facts]
-- ==== Proof.Pieces.lean ====
/-
  What one run of the body leaves behind, read back as values.

  At a grid point whose last coordinate is 0 (the first of the two column tiles of a batch and head) the body first copies
  the k block and the v block, with their two leading unit axes dropped, into the two carried buffers; at every point it
  then computes the score tile and the mixed tile from the q block and from what the two carried buffers hold. So after a
  point of the first kind the carried buffers hold the copies of that point's k and v blocks and the outputs are computed
  from those copies; after a point of the second kind the carried buffers are as the point before left them and the outputs
  are computed from them.
-/
import proofs.«143725_j13554916786722_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## A point that refreshes the carried buffers -/

/-- The first carried buffer ends holding the copy of the k block. -/
theorem keepK_fresh (c : Dev nD) (i : grid0.Coords) (arg3 : Memref sig .tc .vmem S1x1x2048x256 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x256x2048 .f32) (harg6 : arg6.IsWhole) (arg7 : Memref sig .tc .vmem S1x1x256x512 .f32) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S1x1x2048x256 .f32) (x1 : Vec F S1x1x2048x512 .f32) (x2 : Vec F S1x1x2048x512 .f32) :
    sout0_A_0 c i arg3 harg3 arg4 harg4 arg5 harg5 arg6 harg6 arg7 harg7 arg8 harg8 arg9 harg9 hc0 x0 x1 x2 = k0_pay1 x1 := by
  unfold sout0_A_0
  rw [View.read_writes_eq_canon _ _ _ (scover0_A_0 c i arg3 harg3 arg4 harg4 arg5 harg5 arg6 harg6 arg7 harg7 arg8 harg8 arg9 harg9 hc0 x0 x1 x2)]
  unfold kernelRun0_A
  dsimp only
  sl_unfold_words
  rw [View.canon_unit_zero hz2]
  simp only [View.readAt_eq_ld, harg4.read_unread, View.ld_unit_zero (S := S1x1x2048x512) hz4]

/-- The second carried buffer ends holding the copy of the v block. -/
theorem keepV_fresh (c : Dev nD) (i : grid0.Coords) (arg3 : Memref sig .tc .vmem S1x1x2048x256 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x256x2048 .f32) (harg6 : arg6.IsWhole) (arg7 : Memref sig .tc .vmem S1x1x256x512 .f32) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S1x1x2048x256 .f32) (x1 : Vec F S1x1x2048x512 .f32) (x2 : Vec F S1x1x2048x512 .f32) :
    sout0_A_1 c i arg3 harg3 arg4 harg4 arg5 harg5 arg6 harg6 arg7 harg7 arg8 harg8 arg9 harg9 hc0 x0 x1 x2 = k0_pay2 x2 := by
  unfold sout0_A_1
  rw [View.read_writes_eq_canon _ _ _ (scover0_A_1 c i arg3 harg3 arg4 harg4 arg5 harg5 arg6 harg6 arg7 harg7 arg8 harg8 arg9 harg9 hc0 x0 x1 x2)]
  unfold kernelRun0_A
  dsimp only
  sl_unfold_words
  rw [View.canon_unit_zero hz2]
  simp only [View.readAt_eq_ld, harg5.read_unread, View.ld_unit_zero (S := S1x1x2048x512) hz4]

/-- The mixed tile is computed from the q block and the two fresh copies. -/
theorem mixed_fresh (c : Dev nD) (i : grid0.Coords) (arg3 : Memref sig .tc .vmem S1x1x2048x256 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x256x2048 .f32) (harg6 : arg6.IsWhole) (arg7 : Memref sig .tc .vmem S1x1x256x512 .f32) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S1x1x2048x256 .f32) (x1 : Vec F S1x1x2048x512 .f32) (x2 : Vec F S1x1x2048x512 .f32) :
    out0_A_3 c i arg3 harg3 arg4 harg4 arg5 harg5 arg6 harg6 arg7 harg7 arg8 harg8 arg9 harg9 hc0 x0 x1 x2 = k0_pay5 x0 (k0_pay1 x1) (k0_pay2 x2) := by
  unfold out0_A_3
  rw [View.read_writes_eq_canon _ _ _ (cover0_A_3 c i arg3 harg3 arg4 harg4 arg5 harg5 arg6 harg6 arg7 harg7 arg8 harg8 arg9 harg9 hc0 x0 x1 x2)]
  unfold kernelRun0_A
  dsimp only
  sl_unfold_words
  rw [View.canon_unit_zero hz4, View.readCov_unit_zero (S := S2048x512) _ hz2, View.readCov_unit_zero (S := S2048x512) _ hz2]
  simp only [View.readAt_eq_ld, harg3.read_unread, harg4.read_unread, harg5.read_unread,
    View.ld_unit_zero (S := S1x1x2048x256) hz4, View.ld_unit_zero (S := S1x1x2048x512) hz4]

/-- The score tile is computed from the q block and the fresh copy of the k block. -/
theorem scores_fresh (c : Dev nD) (i : grid0.Coords) (arg3 : Memref sig .tc .vmem S1x1x2048x256 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x256x2048 .f32) (harg6 : arg6.IsWhole) (arg7 : Memref sig .tc .vmem S1x1x256x512 .f32) (harg7 : arg7.IsWhole) (arg8 : Memref sig .tc .vmem S2048x512 .bf16) (harg8 : arg8.IsWhole) (arg9 : Memref sig .tc .vmem S2048x512 .bf16) (harg9 : arg9.IsWhole) (hc0 : cond0_0 i)
    (x0 : Vec F S1x1x2048x256 .f32) (x1 : Vec F S1x1x2048x512 .f32) (x2 : Vec F S1x1x2048x512 .f32) :
    out0_A_4 c i arg3 harg3 arg4 harg4 arg5 harg5 arg6 harg6 arg7 harg7 arg8 harg8 arg9 harg9 hc0 x0 x1 x2 = k0_pay4 x0 (k0_pay1 x1) := by
  unfold out0_A_4
  rw [View.read_writes_eq_canon _ _ _ (cover0_A_4 c i arg3 harg3 arg4 harg4 arg5 harg5 arg6 harg6 arg7 harg7 arg8 harg8 arg9 harg9 hc0 x0 x1 x2)]
  unfold kernelRun0_A
  dsimp only
  sl_unfold_words
  rw [View.canon_unit_zero hz4, View.readCov_unit_zero (S := S2048x512) _ hz2]
  simp only [View.readAt_eq_ld, harg3.read_unread, harg4.read_unread,
    View.ld_unit_zero (S := S1x1x2048x256) hz4, View.ld_unit_zero (S := S1x1x2048x512) hz4]

/-! ## A point that reuses the carried buffers -/

/-- The mixed tile is computed from the q block and what the carried buffers held. -/
theorem mixed_reuse (c : Dev nD) (i : grid0.Coords) (arg3 : Memref sig .tc .vmem S1x1x2048x256 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x256x2048 .f32) (harg6 : arg6.IsWhole) (arg7 : Memref sig .tc .vmem S1x1x256x512 .f32) (harg7 : arg7.IsWhole) (arg8 : Memref sig .tc .vmem S2048x512 .bf16) (harg8 : arg8.IsWhole) (arg9 : Memref sig .tc .vmem S2048x512 .bf16) (harg9 : arg9.IsWhole) (hc0 : ¬cond0_0 i)
    (x0 : Vec F S1x1x2048x256 .f32) (x1 : Vec F S1x1x2048x512 .f32) (x2 : Vec F S1x1x2048x512 .f32) (xs0 xs1 : Vec F S2048x512 .bf16) :
    out0_B_3 c i arg3 harg3 arg4 harg4 arg5 harg5 arg6 harg6 arg7 harg7 arg8 harg8 arg9 harg9 hc0 x0 x1 x2 xs0 xs1 = k0_pay5 x0 xs0 xs1 := by
  unfold out0_B_3
  rw [View.read_writes_eq_canon _ _ _ (cover0_B_3 c i arg3 harg3 arg4 harg4 arg5 harg5 arg6 harg6 arg7 harg7 arg8 harg8 arg9 harg9 hc0 x0 x1 x2 xs0 xs1)]
  unfold kernelRun0_B
  dsimp only
  rw [View.canon_unit_zero hz4]
  simp only [View.readAt_eq_ld, harg3.read_unread, harg8.read_unread, harg9.read_unread,
    View.ld_unit_zero (S := S1x1x2048x256) hz4, View.ld_unit_zero (S := S2048x512) hz2]

/-- The score tile is computed from the q block and what the first carried buffer held. -/
theorem scores_reuse (c : Dev nD) (i : grid0.Coords) (arg3 : Memref sig .tc .vmem S1x1x2048x256 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x256x2048 .f32) (harg6 : arg6.IsWhole) (arg7 : Memref sig .tc .vmem S1x1x256x512 .f32) (harg7 : arg7.IsWhole) (arg8 : Memref sig .tc .vmem S2048x512 .bf16) (harg8 : arg8.IsWhole) (arg9 : Memref sig .tc .vmem S2048x512 .bf16) (harg9 : arg9.IsWhole) (hc0 : ¬cond0_0 i)
    (x0 : Vec F S1x1x2048x256 .f32) (x1 : Vec F S1x1x2048x512 .f32) (x2 : Vec F S1x1x2048x512 .f32) (xs0 xs1 : Vec F S2048x512 .bf16) :
    out0_B_4 c i arg3 harg3 arg4 harg4 arg5 harg5 arg6 harg6 arg7 harg7 arg8 harg8 arg9 harg9 hc0 x0 x1 x2 xs0 xs1 = k0_pay4 x0 xs0 := by
  unfold out0_B_4
  rw [View.read_writes_eq_canon _ _ _ (cover0_B_4 c i arg3 harg3 arg4 harg4 arg5 harg5 arg6 harg6 arg7 harg7 arg8 harg8 arg9 harg9 hc0 x0 x1 x2 xs0 xs1)]
  unfold kernelRun0_B
  dsimp only
  rw [View.canon_unit_zero hz4]
  simp only [View.readAt_eq_ld, harg3.read_unread, harg8.read_unread,
    View.ld_unit_zero (S := S1x1x2048x256) hz4, View.ld_unit_zero (S := S2048x512) hz2]

end Cert.KernelIdeal.Pieces

end
-- ==== Proof.Point.lean ====
/-
  What the staging buffers and the two carried buffers hold after every grid point.

  The grid runs over (batch, head, column tile), the column tile fastest, two tiles per (batch, head). The k and v windows
  do not move between the two tiles of a (batch, head): the block a window stages at an odd point is the block it staged at
  the point before. So after EVERY point the carried buffers hold the copies of that point's own k and v blocks — refreshed
  at an even point, kept at an odd one — and both output tiles are the body's arithmetic of the point's q block and those
  copies.
-/
import proofs.«143725_j13554916786722_2_alg».proof.Proof.Pieces

noncomputable section

open Idealize.ShloMosaic Idealize.ShloMosaic.TcCoe Idealize.SL.Sem

namespace Cert.KernelIdeal.Point

open Cert.KernelIdeal Cert.KernelIdeal.Gen

variable {F : FTy → Type} [FloatOps F]
variable (m : (ℓ : Loc nD τ sig) → Buf (Elt F) ℓ)

/-- The k and v windows' block indices at an odd point are those of the point before (decided over the grid). -/
theorem same_blocks : ∀ t t' : Fin cfg0.N, t'.val + 1 = t.val → ¬t.val % 2 = 0 →
    win0_1.index t' = win0_1.index t ∧ win0_2.index t' = win0_2.index t :=
  (by decide +kernel : ∀ t t' : Fin grid0.N, t'.val + 1 = t.val → ¬t.val % 2 = 0 →
    win0_1.index t' = win0_1.index t ∧ win0_2.index t' = win0_2.index t)

/-- Two points at which the k window has the same block index stage the same k block. -/
theorem kblock_congr (c : Dev nD) (t t' : Fin cfg0.N) (h : win0_1.index t' = win0_1.index t) :
    (iblk m c 1 t' : Vec F S1x1x2048x512 .f32) = iblk m c 1 t := by
  funext y
  unfold iblk
  rw [View.read_apply, View.read_apply]
  refine congrArg (V m c (Pipeline.arrRef spec0 1)) (funext fun a => Fin.ext ?_)
  show win0_1.index t' a * S1x1x2048x512.size a + 1 * (y a).val = win0_1.index t a * S1x1x2048x512.size a + 1 * (y a).val
  rw [h]

/-- Two points at which the v window has the same block index stage the same v block. -/
theorem vblock_congr (c : Dev nD) (t t' : Fin cfg0.N) (h : win0_2.index t' = win0_2.index t) :
    (iblk m c 2 t' : Vec F S1x1x2048x512 .f32) = iblk m c 2 t := by
  funext y
  unfold iblk
  rw [View.read_apply, View.read_apply]
  refine congrArg (V m c (Pipeline.arrRef spec0 2)) (funext fun a => Fin.ext ?_)
  show win0_2.index t' a * S1x1x2048x512.size a + 1 * (y a).val = win0_2.index t a * S1x1x2048x512.size a + 1 * (y a).val
  rw [h]

/-- After an even point the carried buffers hold the copies of that point's k and v blocks. -/
theorem carried_fresh (c : Dev nD) (t : Fin cfg0.N) (h0 : t.val % 2 = 0) :
    (outsAt0 m c t.val t.isLt).2.2.1 = k0_pay1 (iblk m c 1 t) ∧ (outsAt0 m c t.val t.isLt).2.2.2 = k0_pay2 (iblk m c 2 t) := by
  rw [outsAt0_A m c t h0]
  dsimp only
  exact ⟨Pieces.keepK_fresh (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t),
    Pieces.keepV_fresh (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)⟩

/-- The point before an odd point. -/
abbrev before (t : Fin cfg0.N) : Fin cfg0.N := ⟨t.val - 1, Nat.lt_of_le_of_lt (Nat.sub_le _ _) t.isLt⟩

/-- What an odd point finds in the carried buffers: the copies of its own k and v blocks, left by the point before. -/
theorem found (c : Dev nD) (t : Fin cfg0.N) (h0 : ¬t.val % 2 = 0) :
    (outsAt0 m c (t.val - 1) (Nat.lt_of_le_of_lt (Nat.sub_le _ _) t.isLt)).2.2.1 = k0_pay1 (iblk m c 1 t)
    ∧ (outsAt0 m c (t.val - 1) (Nat.lt_of_le_of_lt (Nat.sub_le _ _) t.isLt)).2.2.2 = k0_pay2 (iblk m c 2 t) := by
  have hb : (before t).val % 2 = 0 := by show (t.val - 1) % 2 = 0; omega
  obtain ⟨e1, e2⟩ := same_blocks t (before t) (by show t.val - 1 + 1 = t.val; omega) h0
  obtain ⟨p1, p2⟩ := carried_fresh m c (before t) hb
  exact ⟨p1.trans (congrArg k0_pay1 (kblock_congr m c t (before t) e1)),
    p2.trans (congrArg k0_pay2 (vblock_congr m c t (before t) e2))⟩

/-- After every point the mixed tile's staging buffer holds the body's arithmetic of the point's q block and the copies of
    its k and v blocks. -/
theorem mixed_at (c : Dev nD) (t : Fin cfg0.N) :
    (outsAt0 m c t.val t.isLt).1 = k0_pay5 (iblk m c 0 t) (k0_pay1 (iblk m c 1 t)) (k0_pay2 (iblk m c 2 t)) := by
  by_cases h0 : t.val % 2 = 0
  · rw [outsAt0_A m c t h0]
    dsimp only
    exact Pieces.mixed_fresh (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  · obtain ⟨f1, f2⟩ := found m c t h0
    rw [outsAt0_B m c t h0]
    dsimp only
    refine (Pieces.mixed_reuse (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2.1
      (outsAt0 m c (t.val - 1) (Nat.lt_of_le_of_lt (Nat.sub_le _ _) t.isLt)).2.2.2).trans ?_
    exact congrArg₂ (k0_pay5 (iblk m c 0 t)) f1 f2

/-- After every point the score tile's staging buffer holds the body's arithmetic of the point's q block and the copy of
    its k block. -/
theorem scores_at (c : Dev nD) (t : Fin cfg0.N) :
    (outsAt0 m c t.val t.isLt).2.1 = k0_pay4 (iblk m c 0 t) (k0_pay1 (iblk m c 1 t)) := by
  by_cases h0 : t.val % 2 = 0
  · rw [outsAt0_A m c t h0]
    dsimp only
    exact Pieces.scores_fresh (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  · obtain ⟨f1, f2⟩ := found m c t h0
    rw [outsAt0_B m c t h0]
    dsimp only
    refine (Pieces.scores_reuse (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2.1
      (outsAt0 m c (t.val - 1) (Nat.lt_of_le_of_lt (Nat.sub_le _ _) t.isLt)).2.2.2).trans ?_
    exact congrArg (k0_pay4 (iblk m c 0 t)) f1

end Cert.KernelIdeal.Point

end
-- ==== Proof.LibLogSoftmaxRows.lean ====
/-
  The logarithm of a softmax taken along the rows of an array, over the extended reals.

  For a row `z` of `M` entries the result at column `c` is `(z c - t) - log (∑ j, exp (z j - t))`, where the shift `t`
  is the row's largest entry, taken as a fold of `max` from the value of the f32 word of −∞ and joined once more with that
  value (`rowTop`). `logSoftmaxRows Z` does this to every row of `Z`. It is ROW-LOCAL: row `r` of the result reads row
  `r` of `Z` and nothing else (`logSoftmaxRows_row`), so the value computed on a block of rows is the block of the value
  computed on all rows.

  Two spellings meet in it. A vector unit's: a lane maximum and a lane sum (`multiReduction`), each cast to one column
  and broadcast back across the columns (`vector_rows`). A host program's: `reduce` with a maximum body and with an add
  body from the zero word, each broadcast to one column and then across the columns (`host_rows`). Neither needs an
  entry to be finite: no sum is split or reordered, and the shift is the same term on both sides.
-/
import Idealize.ShloMosaic.Lib.Pipeline.Value
import Idealize.ShloMosaic.Lib.ValueIdx
import Idealize.ShloMosaic.Lib.IdealHost
import Idealize.ShloMosaic.PureOps.Ideal.Laws

noncomputable section

namespace Cert.LogSoftmaxRows

open Idealize.ShloMosaic Idealize.ShloMosaic.ValueIdx

/-- An `N × M` array of extended reals. -/
abbrev Mat (N M : Nat) : Type := (⟨2, ![N, M]⟩ : Shape).Idx → EReal

/-- The value of the f32 word of −∞. -/
def bottomWord : EReal := Ideal.ofBits .f32 0xFF800000#32

/-- The shift of row `r`: its largest entry, folded from the −∞ word's value and joined with it once more. -/
def rowTop {N M : Nat} (Z : Mat N M) (r : Fin N) : EReal :=
  max bottomWord ((Finset.univ : Finset (Fin M)).fold max bottomWord (fun j => Z (ix2 r j)))

/-- The logarithm of the softmax of every row. -/
def logSoftmaxRows {N M : Nat} (Z : Mat N M) : Mat N M := fun i =>
  (Z i - rowTop Z (i 0)) - Ideal.log (∑ j : Fin M, Ideal.exp (Z (ix2 (i 0) j) - rowTop Z (i 0)))

theorem logSoftmaxRows_apply {N M : Nat} (Z : Mat N M) (r : Fin N) (c : Fin M) :
    logSoftmaxRows Z (ix2 r c)
      = (Z (ix2 r c) - rowTop Z r) - Ideal.log (∑ j : Fin M, Ideal.exp (Z (ix2 r j) - rowTop Z r)) := rfl

/-! ## Row-locality -/

theorem rowTop_row {n N M : Nat} (Z' : Mat n M) (Z : Mat N M) (r : Fin n) (r' : Fin N)
    (h : ∀ j : Fin M, Z' (ix2 r j) = Z (ix2 r' j)) : rowTop Z' r = rowTop Z r' := by
  unfold rowTop
  rw [show (fun j => Z' (ix2 r j)) = (fun j => Z (ix2 r' j)) from funext h]

/-- Row `r` of the result reads row `r` of the input: if row `r` of `Z'` is row `r'` of `Z`, so are the results'. -/
theorem logSoftmaxRows_row {n N M : Nat} (Z' : Mat n M) (Z : Mat N M) (r : Fin n) (r' : Fin N)
    (h : ∀ j : Fin M, Z' (ix2 r j) = Z (ix2 r' j)) (c : Fin M) :
    logSoftmaxRows Z' (ix2 r c) = logSoftmaxRows Z (ix2 r' c) := by
  rw [logSoftmaxRows_apply, logSoftmaxRows_apply, rowTop_row Z' Z r r' h, h c]
  exact congrArg (fun s => (Z (ix2 r' c) - rowTop Z r') - Ideal.log s)
    (Finset.sum_congr rfl fun j _ => by rw [h j])

/-! ## Reading the layout operations at an index -/

/-- A vector of `n` entries cast to one column, read at `(r, 0)`: the vector at `r`. -/
theorem col_cast_apply {α : Type} {n : Nat} (v : (⟨1, ![n]⟩ : Shape).Idx → α)
    (hs : (⟨1, ![n]⟩ : Shape).ShapeCasts ⟨2, ![n, 1]⟩) (r : Fin n) :
    shapeCast ⟨2, ![n, 1]⟩ v hs (ix2 r (0 : Fin 1)) = v (ix1 r) :=
  shapeCast_apply v hs (ix2 r (0 : Fin 1)) (ix1 r) (by
    rw [Shape.rowMajor_val_two, Shape.rowMajor_val_one]; show r.val = r.val * 1 + 0; omega)

/-- One column broadcast across `m` columns by a vector broadcast, read at `(r, c)`: the column at `r`. -/
theorem broadcastTo_oneCol_apply {α : Type} {n m : Nat} (x : (⟨2, ![n, 1]⟩ : Shape).Idx → α)
    (hb : (⟨2, ![n, 1]⟩ : Shape).Broadcasts ⟨2, ![n, m]⟩) (r : Fin n) (c : Fin m) :
    broadcastTo ⟨2, ![n, m]⟩ x hb (ix2 r c) = x (ix2 r (0 : Fin 1)) :=
  broadcastTo_apply x hb (ix2 r c) (ix2 r (0 : Fin 1)) (by
    intro a
    match a with
    | ⟨0, _⟩ =>
      show r.val = if n = 1 then 0 else r.val
      split
      · have e : r.val < n := r.isLt; omega
      · rfl
    | ⟨1, _⟩ => rfl)

/-- A vector broadcast to one column along axis 0, read at `(r, 0)`: the vector at `r`. -/
theorem bcast_col_apply {α : Type} {n : Nat} (v : (⟨1, ![n]⟩ : Shape).Idx → α)
    (h : (⟨1, ![n]⟩ : Shape).BroadcastsInDim ⟨2, ![n, 1]⟩ ![0]) (r : Fin n) :
    broadcastInDim ⟨2, ![n, 1]⟩ ![0] h v (ix2 r (0 : Fin 1)) = v (ix1 r) :=
  broadcastInDim_apply ![0] h v (ix2 r (0 : Fin 1)) (ix1 r) (by
    intro a
    match a with
    | ⟨0, _⟩ =>
      show r.val = if n = 1 then 0 else r.val
      split
      · have e : r.val < n := r.isLt; omega
      · rfl)

/-- One column broadcast across `m` columns along both axes, read at `(r, c)`: the column at `r`. -/
theorem bcast_cols_apply {α : Type} {n m : Nat} (x : (⟨2, ![n, 1]⟩ : Shape).Idx → α)
    (h : (⟨2, ![n, 1]⟩ : Shape).BroadcastsInDim ⟨2, ![n, m]⟩ ![0, 1]) (r : Fin n) (c : Fin m) :
    broadcastInDim ⟨2, ![n, m]⟩ ![0, 1] h x (ix2 r c) = x (ix2 r (0 : Fin 1)) :=
  broadcastInDim_apply ![0, 1] h x (ix2 r c) (ix2 r (0 : Fin 1)) (by
    intro a
    match a with
    | ⟨0, _⟩ =>
      show r.val = if n = 1 then 0 else r.val
      split
      · have e : r.val < n := r.isLt; omega
      · rfl
    | ⟨1, _⟩ => rfl)

/-- The reduced index `r` of a reduction along the columns, with column `k` put back, is `(r, k)`. -/
theorem lift_row {N M : Nat} (h : (⟨2, ![N, M]⟩ : Shape).Reduces [1] (⟨1, ![N]⟩ : Shape)) (r : Fin N)
    (k : Fin ((⟨2, ![N, M]⟩ : Shape).size 1)) : h.lift (ix1 r) k = ix2 r (⟨k.val, k.isLt⟩ : Fin M) := by
  funext c; apply Fin.ext
  fin_cases c <;> rfl

/-- A function of the columns composed with putting the column back is the function of the row's entries. -/
theorem comp_lift_row {N M : Nat} (h : (⟨2, ![N, M]⟩ : Shape).Reduces [1] (⟨1, ![N]⟩ : Shape)) (Z : Mat N M) (r : Fin N) :
    (Z ∘ h.lift (ix1 r)) = fun k : Fin M => Z (ix2 r k) :=
  funext fun k => congrArg Z (lift_row h r k)

/-! ## The vector unit's spelling -/

section Vector

variable {N M : Nat} (Z : FVec Ideal ⟨2, ![N, M]⟩ .f32)
  (hr : (⟨2, ![N, M]⟩ : Shape).Reduces [1] (⟨1, ![N]⟩ : Shape)) (hφ : FKind.Formats .f32)
  (hmax : (0xFF800000#32 : BitVec 32) = FKind.maximumf.neutral .f32 hφ)
  (hadd : (0x00000000#32 : BitVec 32) = FKind.add.neutral .f32 hφ)
  (hs : (⟨1, ![N]⟩ : Shape).ShapeCasts ⟨2, ![N, 1]⟩) (hb : (⟨2, ![N, 1]⟩ : Shape).Broadcasts ⟨2, ![N, M]⟩)

/-- The lane maximum joined with a splat of the −∞ word, cast to one column and broadcast back: the row's shift. -/
theorem vector_top_apply (r : Fin N) (c : Fin M) :
    broadcastTo ⟨2, ![N, M]⟩ (shapeCast ⟨2, ![N, 1]⟩ (maximumf (broadcast ⟨1, ![N]⟩ (Scalar.ofBits .f32 0xFF800000#32))
      (multiReduction .maximumf [1] ⟨1, ![N]⟩ Z 0xFF800000#32 hr hφ hmax)) hs) hb (ix2 r c) = rowTop Z r := by
  rw [broadcastTo_oneCol_apply, col_cast_apply]
  show max bottomWord (multiReduction .maximumf [1] ⟨1, ![N]⟩ Z 0xFF800000#32 hr hφ hmax (ix1 r)) = _
  rw [Ideal.multiReduction_maximumf_single Z _ hr hφ hmax, comp_lift_row hr Z r]
  rfl

/-- The vector unit's chain — subtract the shift, exponentiate, sum along the lanes, take the logarithm, subtract — is
    the logarithm of the softmax of every row. -/
theorem vector_rows :
    subf (subf Z (broadcastTo ⟨2, ![N, M]⟩ (shapeCast ⟨2, ![N, 1]⟩ (maximumf (broadcast ⟨1, ![N]⟩ (Scalar.ofBits .f32 0xFF800000#32))
        (multiReduction .maximumf [1] ⟨1, ![N]⟩ Z 0xFF800000#32 hr hφ hmax)) hs) hb))
      (broadcastTo ⟨2, ![N, M]⟩ (log (shapeCast ⟨2, ![N, 1]⟩ (multiReduction .add [1] ⟨1, ![N]⟩
        (exp (subf Z (broadcastTo ⟨2, ![N, M]⟩ (shapeCast ⟨2, ![N, 1]⟩ (maximumf (broadcast ⟨1, ![N]⟩ (Scalar.ofBits .f32 0xFF800000#32))
          (multiReduction .maximumf [1] ⟨1, ![N]⟩ Z 0xFF800000#32 hr hφ hmax)) hs) hb)))
        0x00000000#32 hr hφ hadd) hs)) hb)
      = logSoftmaxRows Z := by
  funext i
  obtain ⟨r, c, rfl⟩ : ∃ (r : Fin N) (c : Fin M), i = ix2 r c := ⟨i 0, i 1, eq_ix2 i⟩
  show (Z (ix2 r c) - broadcastTo ⟨2, ![N, M]⟩ _ hb (ix2 r c)) - broadcastTo ⟨2, ![N, M]⟩ _ hb (ix2 r c) = _
  rw [vector_top_apply Z hr hφ hmax hs hb r c, broadcastTo_oneCol_apply]
  show (Z (ix2 r c) - rowTop Z r) - Ideal.log (shapeCast ⟨2, ![N, 1]⟩ _ hs (ix2 r (0 : Fin 1))) = _
  rw [col_cast_apply, Ideal.multiReduction_add_single _ _ hr hφ hadd, logSoftmaxRows_apply]
  refine congrArg (fun s => (Z (ix2 r c) - rowTop Z r) - Ideal.log s) ?_
  refine Finset.sum_congr rfl fun k _ => ?_
  show Ideal.exp (Z (hr.lift (ix1 r) k) - broadcastTo ⟨2, ![N, M]⟩ _ hb (hr.lift (ix1 r) k)) = _
  rw [lift_row hr r k, vector_top_apply Z hr hφ hmax hs hb r]
  rfl

end Vector

/-! ## The host program's spelling -/

section Host

variable {N M : Nat} (Z : FVec Ideal ⟨2, ![N, M]⟩ .f32)
  (hr' : (⟨2, ![N, M]⟩ : Shape).ReducesTo [1] (⟨1, ![N]⟩ : Shape))
  (hu : 0 < (⟨0, ![]⟩ : Shape).numel)
  (h0 : (⟨0, ![]⟩ : Shape).BroadcastsInDim ⟨1, ![N]⟩ ![])
  (h1 : (⟨1, ![N]⟩ : Shape).BroadcastsInDim ⟨2, ![N, 1]⟩ ![0])
  (h2 : (⟨2, ![N, 1]⟩ : Shape).BroadcastsInDim ⟨2, ![N, M]⟩ ![0, 1])

/-- The host's reduce with a maximum body from the −∞ word, joined with that word broadcast, sent to one column and
    across the columns: the row's shift. -/
theorem host_top_apply (hr : (⟨2, ![N, M]⟩ : Shape).Reduces [1] (⟨1, ![N]⟩ : Shape)) (r : Fin N) (c : Fin M) :
    broadcastInDim ⟨2, ![N, M]⟩ ![0, 1] h2 (broadcastInDim ⟨2, ![N, 1]⟩ ![0] h1
      (maximumf (broadcastInDim ⟨1, ![N]⟩ ![] h0 (constant ⟨0, ![]⟩ .f32 0xFF800000#32))
        (Host.reduce FloatOps.maximumf Z (constant ⟨0, ![]⟩ .f32 0xFF800000#32) hr' hu))) (ix2 r c) = rowTop Z r := by
  rw [bcast_cols_apply, bcast_col_apply]
  show max (broadcastInDim ⟨1, ![N]⟩ ![] h0 (constant ⟨0, ![]⟩ .f32 0xFF800000#32) (ix1 r))
    (Host.reduce FloatOps.maximumf Z (constant ⟨0, ![]⟩ .f32 0xFF800000#32) hr' hu (ix1 r)) = _
  rw [broadcastInDim_apply ![] h0 _ _ ix0 (fun a => a.elim0),
    Host.reduce_eq_fold_single FloatOps.maximumf Z _ hr' hr hu, comp_lift_row hr Z r]
  rfl

/-- The host's exponential and logarithm read at an index. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The host's chain — subtract the shift, exponentiate, reduce with an add body from the zero word, take the logarithm,
    subtract — is the logarithm of the softmax of every row. -/
theorem host_rows (hr : (⟨2, ![N, M]⟩ : Shape).Reduces [1] (⟨1, ![N]⟩ : Shape)) :
    subf (subf Z (broadcastInDim ⟨2, ![N, M]⟩ ![0, 1] h2 (broadcastInDim ⟨2, ![N, 1]⟩ ![0] h1
        (maximumf (broadcastInDim ⟨1, ![N]⟩ ![] h0 (constant ⟨0, ![]⟩ .f32 0xFF800000#32))
          (Host.reduce FloatOps.maximumf Z (constant ⟨0, ![]⟩ .f32 0xFF800000#32) hr' hu)))))
      (broadcastInDim ⟨2, ![N, M]⟩ ![0, 1] h2 (Host.log (broadcastInDim ⟨2, ![N, 1]⟩ ![0] h1
        (Host.reduceAdd (Host.exp (subf Z (broadcastInDim ⟨2, ![N, M]⟩ ![0, 1] h2 (broadcastInDim ⟨2, ![N, 1]⟩ ![0] h1
          (maximumf (broadcastInDim ⟨1, ![N]⟩ ![] h0 (constant ⟨0, ![]⟩ .f32 0xFF800000#32))
            (Host.reduce FloatOps.maximumf Z (constant ⟨0, ![]⟩ .f32 0xFF800000#32) hr' hu))))))
          (constant ⟨0, ![]⟩ .f32 0x00000000#32) hr' hu))))
      = logSoftmaxRows Z := by
  funext i
  obtain ⟨r, c, rfl⟩ : ∃ (r : Fin N) (c : Fin M), i = ix2 r c := ⟨i 0, i 1, eq_ix2 i⟩
  rw [subf_apply, subf_apply, host_top_apply Z hr' hu h0 h1 h2 hr r c, bcast_cols_apply, hostLog_apply, bcast_col_apply,
    hostReduceAdd_apply, Ideal.hostReduceAdd_single hr' hr, constant_apply, Ideal.ofBits_zero_f32, zero_add,
    logSoftmaxRows_apply]
  refine congrArg (fun s => (Z (ix2 r c) - rowTop Z r) - Ideal.log s) ?_
  refine Finset.sum_congr rfl fun k _ => ?_
  rw [hostExp_apply, subf_apply, lift_row hr r k, host_top_apply Z hr' hu h0 h1 h2 hr r]
  rfl

end Host

end Cert.LogSoftmaxRows

end
-- ==== Proof.LibSoftmaxRows.lean ====
/-
  The softmax taken along the rows of an array, over the extended reals.

  For a row z of M entries the weight of entry c is exp(z c − t) / Σ_j exp(z j − t), where the shift t is the row's largest
  entry, taken as a fold of max from the value of the f32 word of −∞ (`top`). Joining that fold once more with its own
  starting value changes nothing (`join_top`), which is how a host program's softmax spells its shift.

  A vector unit's spelling — the lane maximum and the lane sum (`multiReduction`), each cast to one column and broadcast
  back across the columns, then an exact division — read at (r, c) is the weight of entry c of row r
  (`vector_weight_apply`). No entry needs to be finite: no sum is split or reordered.

  General: nothing here mentions a program.
-/
import Idealize.ShloMosaic.Lib.Pipeline.Value
import Idealize.ShloMosaic.Lib.ValueIdx
import Idealize.ShloMosaic.PureOps.Ideal.Laws
import proofs.«143725_j13554916786722_2_alg».proof.Proof.LibLogSoftmaxRows

noncomputable section

open scoped BigOperators

namespace Cert.SoftmaxRows

open Idealize.ShloMosaic Idealize.ShloMosaic.ValueIdx Cert.LogSoftmaxRows

/-- The value of the f32 word of −∞, from which a row's maximum is folded. -/
def bottomW : EReal := Ideal.ofBits .f32 0xFF800000#32

/-- The largest entry of a row, folded from the −∞ word's value. -/
def top {M : Nat} (z : Fin M → EReal) : EReal := (Finset.univ : Finset (Fin M)).fold max bottomW z

/-- Joining the fold with its own starting value changes nothing: a fold of max from a value is at least that value. -/
theorem join_top {M : Nat} (z : Fin M → EReal) : max bottomW (top z) = top z :=
  max_eq_right ((Finset.le_fold_max _).mpr (Or.inl le_rfl))

/-- The softmax weight of entry c of a row. -/
def weight {M : Nat} (z : Fin M → EReal) (c : Fin M) : EReal :=
  Ideal.div (Ideal.exp (z c - top z)) (∑ j : Fin M, Ideal.exp (z j - top z))

section Vector

variable {N M : Nat} (Z : FVec Ideal ⟨2, ![N, M]⟩ .f32)
  (hr : (⟨2, ![N, M]⟩ : Shape).Reduces [1] (⟨1, ![N]⟩ : Shape)) (hφ : FKind.Formats .f32)
  (hmax : (0xFF800000#32 : BitVec 32) = FKind.maximumf.neutral .f32 hφ)
  (hadd : (0x00000000#32 : BitVec 32) = FKind.add.neutral .f32 hφ)
  (hs : (⟨1, ![N]⟩ : Shape).ShapeCasts ⟨2, ![N, 1]⟩) (hb : (⟨2, ![N, 1]⟩ : Shape).Broadcasts ⟨2, ![N, M]⟩)

/-- The lane maximum cast to one column and broadcast back across the columns: the row's shift. -/
theorem vector_top_apply (r : Fin N) (c : Fin M) :
    broadcastTo ⟨2, ![N, M]⟩ (shapeCast ⟨2, ![N, 1]⟩
      (multiReduction .maximumf [1] ⟨1, ![N]⟩ Z 0xFF800000#32 hr hφ hmax) hs) hb (ix2 r c)
      = top (fun j => Z (ix2 r j)) := by
  rw [broadcastTo_oneCol_apply, col_cast_apply, Ideal.multiReduction_maximumf_single Z _ hr hφ hmax, comp_lift_row hr Z r]
  rfl

/-- The shifted exponential read at (r, c). -/
theorem vector_exp_apply (r : Fin N) (c : Fin M) :
    exp (subf Z (broadcastTo ⟨2, ![N, M]⟩ (shapeCast ⟨2, ![N, 1]⟩
      (multiReduction .maximumf [1] ⟨1, ![N]⟩ Z 0xFF800000#32 hr hφ hmax) hs) hb)) (ix2 r c)
      = Ideal.exp (Z (ix2 r c) - top (fun j => Z (ix2 r j))) := by
  show Ideal.exp (Z (ix2 r c) - broadcastTo ⟨2, ![N, M]⟩ _ hb (ix2 r c)) = _
  rw [vector_top_apply Z hr hφ hmax hs hb r c]

/-- The vector unit's chain — subtract the lane maximum, exponentiate, sum along the lanes, divide — read at (r, c) is the
    softmax weight of entry c of row r. -/
theorem vector_weight_apply (r : Fin N) (c : Fin M) :
    divf (exp (subf Z (broadcastTo ⟨2, ![N, M]⟩ (shapeCast ⟨2, ![N, 1]⟩
        (multiReduction .maximumf [1] ⟨1, ![N]⟩ Z 0xFF800000#32 hr hφ hmax) hs) hb)))
      (broadcastTo ⟨2, ![N, M]⟩ (shapeCast ⟨2, ![N, 1]⟩ (multiReduction .add [1] ⟨1, ![N]⟩
        (exp (subf Z (broadcastTo ⟨2, ![N, M]⟩ (shapeCast ⟨2, ![N, 1]⟩
          (multiReduction .maximumf [1] ⟨1, ![N]⟩ Z 0xFF800000#32 hr hφ hmax) hs) hb)))
        0x00000000#32 hr hφ hadd) hs) hb) (ix2 r c)
      = weight (fun j => Z (ix2 r j)) c := by
  rw [divf_apply, vector_exp_apply Z hr hφ hmax hs hb r c, broadcastTo_oneCol_apply, col_cast_apply,
    Ideal.multiReduction_add_single _ _ hr hφ hadd]
  unfold weight
  refine congrArg (fun s => Ideal.div (Ideal.exp (Z (ix2 r c) - top (fun j => Z (ix2 r j)))) s) ?_
  refine Finset.sum_congr rfl fun k _ => ?_
  rw [lift_row hr r k]
  exact vector_exp_apply Z hr hφ hmax hs hb r _

end Vector

end Cert.SoftmaxRows

end
-- ==== Proof.Spec.lean ====
/-
  The two results as functions of the three argument arrays q, k, v of shape [4, 8, 2048, 512], index by index, over the
  extended reals.

  For a batch b, a head h and a column d of q, the SCORE ROW is z(e) = (Σ_s q(b,h,s,d) · k(b,h,s,e)) · c, with c the value of the
  f32 word of the scale. The first result holds the scores themselves at (b,h,d,e). The second holds, at (b,h,d,s),
  Σ_e w(e) · v(b,h,s,e), where w is the softmax of the score row (its weights: exp(z(e) − t) / Σ_j exp(z(j) − t), the shift t
  the row's largest entry).

  Everything is stated over rows (functions of one coordinate) so that a tile of columns d computed from a block of q is
  literally the same term as the whole array's entry: a row depends on one column of q and on the whole of k (and v) for
  the same batch and head.
-/
import Idealize.ShloMosaic.PureOps.Ideal
import Idealize.ShloMosaic.Lib.ValueIdx
import proofs.«143725_j13554916786722_2_alg».proof.Proof.LibSoftmaxRows

noncomputable section

open scoped BigOperators

namespace Cert.Attn

open Idealize.ShloMosaic Idealize.ShloMosaic.ValueIdx Cert.SoftmaxRows

/-- The value of the f32 word the scores are multiplied by. -/
def scaleW : EReal := Ideal.ofBits .f32 0x3EB504F3#32

/-- The score row of one column `qc` of q against the matrix `km` of k. -/
def scoreRow {S M : Nat} (qc : Fin S → EReal) (km : Fin S → Fin M → EReal) (e : Fin M) : EReal :=
  (∑ s : Fin S, qc s * km s e) * scaleW

/-- The weighted row: the softmax weights of a row z against row s of the matrix `vm` of v. -/
def mixRow {S M : Nat} (z : Fin M → EReal) (vm : Fin S → Fin M → EReal) (s : Fin S) : EReal :=
  ∑ e : Fin M, weight z e * vm s e

/-- An argument array. -/
abbrev Arg : Type := (⟨4, ![4, 8, 2048, 512]⟩ : Shape).Idx → EReal

/-- Column d of batch b, head h. -/
def col (q : Arg) (b : Fin 4) (h : Fin 8) (d : Fin 512) : Fin 2048 → EReal := fun s => q (ix4 b h s d)

/-- The 2048 × 512 matrix of batch b, head h. -/
def mat (k : Arg) (b : Fin 4) (h : Fin 8) : Fin 2048 → Fin 512 → EReal := fun s e => k (ix4 b h s e)

/-- The first result: the scores. -/
def scores (q k : Arg) : (⟨4, ![4, 8, 512, 512]⟩ : Shape).Idx → EReal := fun i =>
  scoreRow (col q (i 0) (i 1) (i 2)) (mat k (i 0) (i 1)) (i 3)

/-- The second result: the softmax of each score row applied to v. -/
def mixed (q k v : Arg) : (⟨4, ![4, 8, 512, 2048]⟩ : Shape).Idx → EReal := fun i =>
  mixRow (scoreRow (col q (i 0) (i 1) (i 2)) (mat k (i 0) (i 1))) (mat v (i 0) (i 1)) (i 3)

end Cert.Attn

end
-- ==== Proof.LibMatmulTN.lean ====
/-
  A matrix product that contracts the FIRST axis of both operands, read at an index.

  For an R × P array a and an R × Q array b, the matrix unit's product with dimension numbers "contract axis 0 of a
  with axis 0 of b" (aᵀ · b) has at (p, q), over the extended reals, the accumulator's entry plus the exact sum
  Σ_r a(r, p) · b(r, q), whatever the operands' formats; into a zero accumulator it is that sum alone.

  General: nothing here mentions a program.
-/
import Idealize.ShloMosaic.PureOps.Ideal
import Idealize.ShloMosaic.PureOps.Ideal.Laws
import Idealize.ShloMosaic.Lib.ValueIdx

noncomputable section

open scoped BigOperators

namespace Cert.LibMatmulTN

open Idealize.ShloMosaic Idealize.ShloMosaic.ValueIdx

/-- The dimension numbers of aᵀ · b: a is R × P, b is R × Q, the result P × Q; no batch axis. -/
abbrev tnDims (R P Q : Nat)
    (wf : DotDims.WF ⟨2, ![R, P]⟩ ⟨2, ![R, Q]⟩ ⟨2, ![P, Q]⟩ [0] [0] [1] [1] [] []) :
    DotDims ⟨2, ![R, P]⟩ ⟨2, ![R, Q]⟩ ⟨2, ![P, Q]⟩ where
  lhsContracting := [0]
  rhsContracting := [0]
  lhsNonContracting := [1]
  rhsNonContracting := [1]
  lhsBatch := []
  rhsBatch := []
  wf := wf

section
variable {R P Q : Nat} (wf : DotDims.WF ⟨2, ![R, P]⟩ ⟨2, ![R, Q]⟩ ⟨2, ![P, Q]⟩ [0] [0] [1] [1] [] [])

/-- The left operand's column is the result's row. -/
theorem lhs_one (j : (⟨2, ![P, Q]⟩ : Shape).Idx) (k : (tnDims R P Q wf).contr.Idx) :
    ((tnDims R P Q wf).lhsIdx j k 1).val = (j 0).val := by
  unfold DotDims.lhsIdx
  rw [dif_neg (show ¬ (1 : Fin 2) ∈ (tnDims R P Q wf).lhsBatch from List.not_mem_nil),
    dif_pos (show (1 : Fin 2) ∈ (tnDims R P Q wf).lhsNonContracting from List.mem_singleton.mpr rfl)]
  rfl

/-- The right operand's column is the result's column. -/
theorem rhs_one (j : (⟨2, ![P, Q]⟩ : Shape).Idx) (k : (tnDims R P Q wf).contr.Idx) :
    ((tnDims R P Q wf).rhsIdx j k 1).val = (j 1).val := by
  unfold DotDims.rhsIdx
  rw [dif_neg (show ¬ (1 : Fin 2) ∈ (tnDims R P Q wf).rhsBatch from List.not_mem_nil),
    dif_pos (show (1 : Fin 2) ∈ (tnDims R P Q wf).rhsNonContracting from List.mem_singleton.mpr rfl)]
  rfl

end

/-- aᵀ · b added to an accumulator, read at (p, q): the accumulator's entry plus the sum over the shared first axis. -/
theorem matmul_tn_apply {φ₁ φ₂ : FTy} {R P Q : Nat}
    (wf : DotDims.WF ⟨2, ![R, P]⟩ ⟨2, ![R, Q]⟩ ⟨2, ![P, Q]⟩ [0] [0] [1] [1] [] [])
    (prec : Option ContractPrecision) (a : FVec Ideal ⟨2, ![R, P]⟩ φ₁) (b : FVec Ideal ⟨2, ![R, Q]⟩ φ₂)
    (acc : FVec Ideal ⟨2, ![P, Q]⟩ .f32) (p : Fin P) (q : Fin Q) :
    FloatOps.matmul (tnDims R P Q wf) prec a b acc (ix2 p q)
      = acc (ix2 p q) + ∑ r : Fin R, a (ix2 r p) * b (ix2 r q) := by
  rw [Ideal.matmul_apply, ← Equiv.sum_comp (contrEquiv1 (tnDims R P Q wf) R rfl rfl).symm]
  refine congrArg (acc (ix2 p q) + ·) (Finset.sum_congr rfl fun k _ => ?_)
  have hk := contrEquiv1_symm_val (tnDims R P Q wf) R rfl rfl k
  have el : (tnDims R P Q wf).lhsIdx (ix2 p q) ((contrEquiv1 (tnDims R P Q wf) R rfl rfl).symm k) = ix2 k p := by
    funext x; refine Fin.ext ?_; revert x
    exact Fin.forall_fin_two.2 ⟨((tnDims R P Q wf).lhsIdx_val_of_single rfl _ _).trans hk, lhs_one wf _ _⟩
  have er : (tnDims R P Q wf).rhsIdx (ix2 p q) ((contrEquiv1 (tnDims R P Q wf) R rfl rfl).symm k) = ix2 k q := by
    funext x; refine Fin.ext ?_; revert x
    exact Fin.forall_fin_two.2 ⟨((tnDims R P Q wf).rhsIdx_val_of_single rfl _ _).trans hk, rhs_one wf _ _⟩
  rw [el, er]

/-- aᵀ · b into zero, read at (p, q): the sum over the shared first axis. -/
theorem matmul_tn_zero_apply {φ₁ φ₂ : FTy} {R P Q : Nat}
    (wf : DotDims.WF ⟨2, ![R, P]⟩ ⟨2, ![R, Q]⟩ ⟨2, ![P, Q]⟩ [0] [0] [1] [1] [] [])
    (prec : Option ContractPrecision) (a : FVec Ideal ⟨2, ![R, P]⟩ φ₁) (b : FVec Ideal ⟨2, ![R, Q]⟩ φ₂)
    (p : Fin P) (q : Fin Q) :
    FloatOps.matmul (tnDims R P Q wf) prec a b (constant ⟨2, ![P, Q]⟩ .f32 0x00000000#32) (ix2 p q)
      = ∑ r : Fin R, a (ix2 r p) * b (ix2 r q) := by
  rw [matmul_tn_apply]
  show Ideal.ofBits .f32 0x00000000#32 + _ = _
  rw [Ideal.ofBits_zero_f32, zero_add]

end Cert.LibMatmulTN

end
-- ==== Proof.LibMatmulNT.lean ====
/-
  A matrix product that contracts the LAST axis of both operands, read at an index.

  For an R × K array a and a C × K array b, the matrix unit's product into a zero accumulator with dimension numbers
  "contract axis 1 of a with axis 1 of b" (a · bᵀ) has at (p, q) the entry Σ_d a(p, d) · b(q, d): over the extended
  reals the product is that exact sum, whatever the operands' formats.

  General: nothing here mentions a program.
-/
import Idealize.ShloMosaic.PureOps.Ideal
import Idealize.ShloMosaic.PureOps.Ideal.Laws
import Idealize.ShloMosaic.Lib.ValueIdx

noncomputable section

open scoped BigOperators

namespace Cert.LibMatmulNT

open Idealize.ShloMosaic Idealize.ShloMosaic.ValueIdx

/-- The dimension numbers of a · bᵀ: a is R × K, b is C × K, the result R × C; no batch axis. -/
abbrev ntDims (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's row is the result's row. -/
theorem lhs_zero (j : (⟨2, ![R, C]⟩ : Shape).Idx) (k : (ntDims R K C wf).contr.Idx) :
    ((ntDims R K C wf).lhsIdx j k 0).val = (j 0).val := by
  unfold DotDims.lhsIdx
  rw [dif_neg (show ¬ (0 : Fin 2) ∈ (ntDims R K C wf).lhsBatch from List.not_mem_nil),
    dif_pos (show (0 : Fin 2) ∈ (ntDims R K C wf).lhsNonContracting from List.mem_singleton.mpr rfl)]
  rfl

/-- The right operand's row is the result's column. -/
theorem rhs_zero (j : (⟨2, ![R, C]⟩ : Shape).Idx) (k : (ntDims R K C wf).contr.Idx) :
    ((ntDims R K C wf).rhsIdx j k 0).val = (j 1).val := by
  unfold DotDims.rhsIdx
  rw [dif_neg (show ¬ (0 : Fin 2) ∈ (ntDims R K C wf).rhsBatch from List.not_mem_nil),
    dif_pos (show (0 : Fin 2) ∈ (ntDims R K C wf).rhsNonContracting from List.mem_singleton.mpr rfl)]
  rfl

end

/-- a · bᵀ into zero, read at (p, q): the sum over the shared axis. -/
theorem matmul_nt_zero_apply {φ₁ φ₂ : FTy} {R K C : Nat}
    (wf : DotDims.WF ⟨2, ![R, K]⟩ ⟨2, ![C, K]⟩ ⟨2, ![R, C]⟩ [1] [1] [0] [0] [] [])
    (prec : Option ContractPrecision) (a : FVec Ideal ⟨2, ![R, K]⟩ φ₁) (b : FVec Ideal ⟨2, ![C, K]⟩ φ₂)
    (p : Fin R) (q : Fin C) :
    FloatOps.matmul (ntDims R K C wf) prec a b (constant ⟨2, ![R, C]⟩ .f32 0x00000000#32) (ix2 p q)
      = ∑ d : Fin K, a (ix2 p d) * b (ix2 q d) := by
  rw [Ideal.matmul_constant_zero_apply, ← Equiv.sum_comp (contrEquiv1 (ntDims R K C wf) K rfl rfl).symm]
  refine Finset.sum_congr rfl fun k _ => ?_
  have hk := contrEquiv1_symm_val (ntDims R K C wf) K rfl rfl k
  have el : (ntDims R K C wf).lhsIdx (ix2 p q) ((contrEquiv1 (ntDims R K C wf) K rfl rfl).symm k) = ix2 p k := by
    funext x; refine Fin.ext ?_; revert x
    exact Fin.forall_fin_two.2 ⟨lhs_zero wf _ _, ((ntDims R K C wf).lhsIdx_val_of_single rfl _ _).trans hk⟩
  have er : (ntDims R K C wf).rhsIdx (ix2 p q) ((contrEquiv1 (ntDims R K C wf) K rfl rfl).symm k) = ix2 q k := by
    funext x; refine Fin.ext ?_; revert x
    exact Fin.forall_fin_two.2 ⟨rhs_zero wf _ _, ((ntDims R K C wf).rhsIdx_val_of_single rfl _ _).trans hk⟩
  rw [el, er]

end Cert.LibMatmulNT

end
-- ==== Proof.Tile.lean ====
/-
  The body's arithmetic at one grid point, read at an index over the extended reals.

  From a q block x0 of shape [1, 1, 2048, 256] and the two carried 2048 × 512 matrices kk and vv: the score tile has at
  (d, e) the score row of column d of the block against kk, and the mixed tile at (d, s) that row's softmax weights against row
  s of vv. The first product contracts the first axis of both operands, the second the last axis of both; the row maximum
  and the row sum are lane reductions laid out as one column and broadcast back. A change of float format is the identity.
-/
import proofs.«143725_j13554916786722_2_alg».proof.Proof.Gen.KernelIdeal.Skeleton
import proofs.«143725_j13554916786722_2_alg».proof.Proof.Spec
import proofs.«143725_j13554916786722_2_alg».proof.Proof.LibMatmulTN
import proofs.«143725_j13554916786722_2_alg».proof.Proof.LibMatmulNT
import Idealize.ShloMosaic.Lib.Pipeline.Value
import Idealize.ShloMosaic.PureOps.Ideal.Laws

noncomputable section

open scoped BigOperators

namespace Cert.KernelIdeal.Tile

open Cert.KernelIdeal Cert.KernelIdeal.Gen Cert.Attn Cert.SoftmaxRows
open Idealize.ShloMosaic Idealize.ShloMosaic.ValueIdx

/-! ## Two leading unit axes dropped or added -/

/-- A [1, 1, A, B] array viewed as A × B, read at (a, b): the array at (0, 0, a, b). -/
theorem drop2_apply {α : Type} {A B : Nat} (x : (⟨4, ![1, 1, A, B]⟩ : Shape).Idx → α)
    (h : (⟨4, ![1, 1, A, B]⟩ : Shape).ShapeCasts ⟨2, ![A, B]⟩) (a : Fin A) (b : Fin B) :
    shapeCast ⟨2, ![A, B]⟩ x h (ix2 a b) = x (ix4 (0 : Fin 1) (0 : Fin 1) a b) :=
  shapeCast_apply x h (ix2 a b) (ix4 (0 : Fin 1) (0 : Fin 1) a b) (by
    rw [Shape.rowMajor_val_four, Shape.rowMajor_val_two]
    show ((0 * 1 + 0) * A + a.val) * B + b.val = a.val * B + b.val
    simp)

/-- An A × B array viewed as [1, 1, A, B], read at (z0, z1, a, b): the array at (a, b). -/
theorem add2_apply {α : Type} {A B : Nat} (y : (⟨2, ![A, B]⟩ : Shape).Idx → α)
    (h : (⟨2, ![A, B]⟩ : Shape).ShapeCasts ⟨4, ![1, 1, A, B]⟩) (z0 z1 : Fin 1) (a : Fin A) (b : Fin B) :
    shapeCast ⟨4, ![1, 1, A, B]⟩ y h (ix4 z0 z1 a b) = y (ix2 a b) :=
  shapeCast_apply y h (ix4 z0 z1 a b) (ix2 a b) (by
    rw [Shape.rowMajor_val_four, Shape.rowMajor_val_two]
    show a.val * B + b.val = ((z0.val * 1 + z1.val) * A + a.val) * B + b.val
    have e0 : z0.val = 0 := by have := z0.isLt; omega
    have e1 : z1.val = 0 := by have := z1.isLt; omega
    rw [e0, e1]; simp)

/-! ## The copies carried between points -/

/-- The copy of a k block: the block with its two leading unit axes dropped. -/
theorem copyK_apply (x1 : Vec Ideal S1x1x2048x512 .f32) (s : Fin 2048) (e : Fin 512) :
    k0_pay1 x1 (ix2 s e) = x1 (ix4 (0 : Fin 1) (0 : Fin 1) s e) := by
  unfold k0_pay1
  rw [shapeCast_self]
  exact drop2_apply x1 _ s e

/-- The copy of a v block: the block with its two leading unit axes dropped. -/
theorem copyV_apply (x2 : Vec Ideal S1x1x2048x512 .f32) (s : Fin 2048) (e : Fin 512) :
    k0_pay2 x2 (ix2 s e) = x2 (ix4 (0 : Fin 1) (0 : Fin 1) s e) := by
  unfold k0_pay2
  rw [shapeCast_self]
  exact drop2_apply x2 _ s e

/-! ## The score tile -/

/-- Column d of a q block. -/
def qcol (x0 : Vec Ideal S1x1x2048x256 .f32) (d : Fin 256) : Fin 2048 → EReal :=
  fun s => x0 (ix4 (0 : Fin 1) (0 : Fin 1) s d)

/-- A 2048 × 512 matrix as a function of its two coordinates. -/
def rows (kk : Vec Ideal S2048x512 .bf16) : Fin 2048 → Fin 512 → EReal := fun s e => kk (ix2 s e)

/-- The scaled product at (d, e): the score row of column d. -/
theorem scoreTile_apply (x0 : Vec Ideal S1x1x2048x256 .f32) (kk : Vec Ideal S2048x512 .bf16) (d : Fin 256) (e : Fin 512) :
    k0_pay3 x0 kk (ix2 d e) = scoreRow (qcol x0 d) (rows kk) e := by
  unfold k0_pay3
  show FloatOps.matmul (Cert.LibMatmulTN.tnDims 2048 256 512 dot_S2048x256_S2048x512_S256x512_0_0_1_1_n_n_wf) none
      (truncf .bf16 (shapeCast S2048x256 x0 shapeCasts_S1x1x2048x256_S2048x256) bitsLt_bf16_f32) kk
      (constant S256x512 .f32 0x00000000#32) (ix2 d e) * Ideal.ofBits .f32 0x3EB504F3#32 = _
  rw [Cert.LibMatmulTN.matmul_tn_zero_apply]
  unfold scoreRow scaleW qcol rows
  refine congrArg (· * Ideal.ofBits .f32 0x3EB504F3#32) (Finset.sum_congr rfl fun s _ => ?_)
  exact congrArg (· * kk (ix2 s e)) (drop2_apply x0 _ s d)

/-- The score row of column d, as the tile's row d. -/
theorem scoreTile_row (x0 : Vec Ideal S1x1x2048x256 .f32) (kk : Vec Ideal S2048x512 .bf16) (d : Fin 256) :
    (fun e => k0_pay3 x0 kk (ix2 d e)) = scoreRow (qcol x0 d) (rows kk) :=
  funext fun e => scoreTile_apply x0 kk d e

/-- The score tile as stored, read at (z0, z1, d, e). -/
theorem scoresOut_apply (x0 : Vec Ideal S1x1x2048x256 .f32) (kk : Vec Ideal S2048x512 .bf16) (z0 z1 : Fin 1) (d : Fin 256)
    (e : Fin 512) : k0_pay4 x0 kk (ix4 z0 z1 d e) = scoreRow (qcol x0 d) (rows kk) e := by
  unfold k0_pay4
  exact (add2_apply (k0_pay3 x0 kk) _ z0 z1 d e).trans (scoreTile_apply x0 kk d e)

/-! ## The mixed tile -/

/-- The mixed tile as stored, read at (z0, z1, d, s): the softmax weights of the score row of column d against row s of vv. -/
theorem mixedOut_apply (x0 : Vec Ideal S1x1x2048x256 .f32) (kk vv : Vec Ideal S2048x512 .bf16) (z0 z1 : Fin 1) (d : Fin 256)
    (s : Fin 2048) : k0_pay5 x0 kk vv (ix4 z0 z1 d s) = mixRow (scoreRow (qcol x0 d) (rows kk)) (rows vv) s := by
  unfold k0_pay5
  refine (add2_apply _ _ z0 z1 d s).trans ?_
  show FloatOps.matmul (F := Ideal) (Cert.LibMatmulNT.ntDims 256 512 2048 dot_S256x512_S2048x512_S256x2048_1_1_0_0_n_n_wf) none
      (_ : FVec Ideal S256x512 .bf16) (vv : FVec Ideal S2048x512 .bf16) (constant S256x2048 .f32 0x00000000#32) (ix2 d s) = _
  rw [Cert.LibMatmulNT.matmul_nt_zero_apply]
  unfold mixRow rows
  refine Finset.sum_congr rfl fun e _ => ?_
  refine congrArg (· * vv (ix2 s e)) ?_
  refine (vector_weight_apply (k0_pay3 x0 kk) reduces_S256x512_S256 (.inl rfl) rfl rfl shapeCasts_S256_S256x1
    broadcasts_S256x1_S256x512 d e).trans ?_
  rw [scoreTile_row]
  rfl

end Cert.KernelIdeal.Tile

end
-- ==== Proof.Whole.lean ====
/-
  From tiles to arrays: after the run the two result arrays hold the specification's two functions of the argument arrays.

  Grid point t has coordinates (b, h, n); it stages columns 256 n … 256 n + 255 of q's matrix for (b, h) and the whole k and v
  matrices for (b, h), and writes back rows 256 n … 256 n + 255 of both results' (b, h) slices. A score row and a mixed row
  depend on one column of q and on the (b, h) matrices of k and v only, so the tile a point writes back is the
  specification's array read through the point's block. The 64 blocks of each result tile it: the point that covers
  (b, h, d, ·) is the one with coordinates (b, h, d / 256).
-/
import proofs.«143725_j13554916786722_2_alg».proof.Proof.Gen.KernelIdeal.Value
import proofs.«143725_j13554916786722_2_alg».proof.Proof.Point
import proofs.«143725_j13554916786722_2_alg».proof.Proof.Tile

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.Attn
open Idealize.ShloMosaic.ValueIdx

variable (m : (ℓ : Loc nD τ sig) → Buf (Elt Ideal) ℓ) (ρ : Dev nD → PrngReg)

/-! ## The index maps, decided over the grid -/

/-- Every window's block index in terms of the score window's: batch and head on the first two axes; the column tile on
    q's last axis and on the results' third; zero elsewhere. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = 0 ∧ win0_0.index t (3 : Fin 4) = win0_4.index t (2 : Fin 4))
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4)
      ∧ win0_3.index t (2 : Fin 4) = win0_4.index t (2 : Fin 4) ∧ win0_3.index t (3 : Fin 4) = 0)
    ∧ (win0_4.index t (3 : Fin 4) = 0 ∧ win0_4.index t (0 : Fin 4) ≤ 3 ∧ win0_4.index t (1 : Fin 4) ≤ 7
      ∧ win0_4.index t (2 : Fin 4) ≤ 1) :=
  (by decide +kernel : ∀ t : Fin grid0.N, _)

/-- Every (batch, head, column tile) is some point's. -/
theorem idx_onto : ∀ (b : Fin 4) (h : Fin 8) (n : Fin 2), ∃ t : Fin cfg0.N,
    win0_4.index t (0 : Fin 4) = b.val ∧ win0_4.index t (1 : Fin 4) = h.val ∧ win0_4.index t (2 : Fin 4) = n.val :=
  (by decide +kernel : ∀ (b : Fin 4) (h : Fin 8) (n : Fin 2), ∃ t : Fin grid0.N,
    win0_4.index t (0 : Fin 4) = b.val ∧ win0_4.index t (1 : Fin 4) = h.val ∧ win0_4.index t (2 : Fin 4) = n.val)

/-! ## The input blocks read at an index -/

/-- The q block of point t at (0, 0, s, d) is q at (b, h, s, 256 n + d). -/
theorem qblock_apply (c : Dev nD) (t : Fin cfg0.N) (s : Fin 2048) (d : Fin 256) (j : S4x8x2048x512.Idx)
    (h0 : (j 0).val = win0_4.index t (0 : Fin 4)) (h1 : (j 1).val = win0_4.index t (1 : Fin 4)) (h2 : (j 2).val = s.val)
    (h3 : (j 3).val = win0_4.index t (2 : Fin 4) * 256 + d.val) :
    (iblk m c 0 t : Vec Ideal S1x1x2048x256 .f32) (ix4 (0 : Fin 1) (0 : Fin 1) s d) = V m c main_arg0 j := by
  obtain ⟨⟨e0, e1, e2, e3⟩, -⟩ := idx_facts t
  unfold iblk
  rw [View.read_apply]
  refine congrArg (V m c main_arg0) (funext fun a => Fin.ext ?_)
  match a with
  | ⟨0, _⟩ => show win0_0.index t (0 : Fin 4) * 1 + 1 * 0 = (j 0).val; omega
  | ⟨1, _⟩ => show win0_0.index t (1 : Fin 4) * 1 + 1 * 0 = (j 1).val; omega
  | ⟨2, _⟩ => show win0_0.index t (2 : Fin 4) * 2048 + 1 * s.val = (j 2).val; omega
  | ⟨3, _⟩ => show win0_0.index t (3 : Fin 4) * 256 + 1 * d.val = (j 3).val; omega

/-- The k block of point t at (0, 0, s, e) is k at (b, h, s, e). -/
theorem kblock_apply (c : Dev nD) (t : Fin cfg0.N) (s : Fin 2048) (e : Fin 512) (j : S4x8x2048x512.Idx)
    (h0 : (j 0).val = win0_4.index t (0 : Fin 4)) (h1 : (j 1).val = win0_4.index t (1 : Fin 4)) (h2 : (j 2).val = s.val)
    (h3 : (j 3).val = e.val) :
    (iblk m c 1 t : Vec Ideal S1x1x2048x512 .f32) (ix4 (0 : Fin 1) (0 : Fin 1) s e) = V m c main_arg1 j := by
  obtain ⟨-, ⟨e0, e1, e2, e3⟩, -⟩ := idx_facts t
  unfold iblk
  rw [View.read_apply]
  refine congrArg (V m c main_arg1) (funext fun a => Fin.ext ?_)
  match a with
  | ⟨0, _⟩ => show win0_1.index t (0 : Fin 4) * 1 + 1 * 0 = (j 0).val; omega
  | ⟨1, _⟩ => show win0_1.index t (1 : Fin 4) * 1 + 1 * 0 = (j 1).val; omega
  | ⟨2, _⟩ => show win0_1.index t (2 : Fin 4) * 2048 + 1 * s.val = (j 2).val; omega
  | ⟨3, _⟩ => show win0_1.index t (3 : Fin 4) * 512 + 1 * e.val = (j 3).val; omega

/-- The v block of point t at (0, 0, s, e) is v at (b, h, s, e). -/
theorem vblock_apply (c : Dev nD) (t : Fin cfg0.N) (s : Fin 2048) (e : Fin 512) (j : S4x8x2048x512.Idx)
    (h0 : (j 0).val = win0_4.index t (0 : Fin 4)) (h1 : (j 1).val = win0_4.index t (1 : Fin 4)) (h2 : (j 2).val = s.val)
    (h3 : (j 3).val = e.val) :
    (iblk m c 2 t : Vec Ideal S1x1x2048x512 .f32) (ix4 (0 : Fin 1) (0 : Fin 1) s e) = V m c main_arg2 j := by
  obtain ⟨-, -, ⟨e0, e1, e2, e3⟩, -⟩ := idx_facts t
  unfold iblk
  rw [View.read_apply]
  refine congrArg (V m c main_arg2) (funext fun a => Fin.ext ?_)
  match a with
  | ⟨0, _⟩ => show win0_2.index t (0 : Fin 4) * 1 + 1 * 0 = (j 0).val; omega
  | ⟨1, _⟩ => show win0_2.index t (1 : Fin 4) * 1 + 1 * 0 = (j 1).val; omega
  | ⟨2, _⟩ => show win0_2.index t (2 : Fin 4) * 2048 + 1 * s.val = (j 2).val; omega
  | ⟨3, _⟩ => show win0_2.index t (3 : Fin 4) * 512 + 1 * e.val = (j 3).val; omega

/-! ## A tile's entry is the array's -/

/-- The score tile of a q block and a k block at (z0, z1, d, e) is the scores array at (b, h, d', e), when column d of the
    q block is column d' of q's (b, h) matrix and the k block is k's (b, h) matrix. -/
theorem scores_meet (Q K : Arg) (x0 : Vec Ideal S1x1x2048x256 .f32) (x1 : Vec Ideal S1x1x2048x512 .f32)
    (z0 z1 : Fin 1) (d : Fin 256) (e : Fin 512) (b : Fin 4) (h : Fin 8) (d' : Fin 512)
    (hq : ∀ s : Fin 2048, x0 (ix4 (0 : Fin 1) (0 : Fin 1) s d) = Q (ix4 b h s d'))
    (hk : ∀ (s : Fin 2048) (e : Fin 512), x1 (ix4 (0 : Fin 1) (0 : Fin 1) s e) = K (ix4 b h s e)) :
    k0_pay4 x0 (k0_pay1 x1) (ix4 z0 z1 d e) = scores Q K (ix4 b h d' e) := by
  rw [Tile.scoresOut_apply]
  have e1 : Tile.qcol x0 d = col Q b h d' := funext fun s => hq s
  have e2 : Tile.rows (k0_pay1 x1) = mat K b h :=
    funext fun s => funext fun e => (Tile.copyK_apply x1 s e).trans (hk s e)
  rw [e1, e2]
  rfl

/-- The mixed tile of a q block, a k block and a v block at (z0, z1, d, s) is the mixed array at (b, h, d', s), under the same
    conditions, the v block being v's (b, h) matrix. -/
theorem mixed_meet (Q K W : Arg) (x0 : Vec Ideal S1x1x2048x256 .f32) (x1 x2 : Vec Ideal S1x1x2048x512 .f32)
    (z0 z1 : Fin 1) (d : Fin 256) (s : Fin 2048) (b : Fin 4) (h : Fin 8) (d' : Fin 512)
    (hq : ∀ s : Fin 2048, x0 (ix4 (0 : Fin 1) (0 : Fin 1) s d) = Q (ix4 b h s d'))
    (hk : ∀ (s : Fin 2048) (e : Fin 512), x1 (ix4 (0 : Fin 1) (0 : Fin 1) s e) = K (ix4 b h s e))
    (hv : ∀ (s : Fin 2048) (e : Fin 512), x2 (ix4 (0 : Fin 1) (0 : Fin 1) s e) = W (ix4 b h s e)) :
    k0_pay5 x0 (k0_pay1 x1) (k0_pay2 x2) (ix4 z0 z1 d s) = mixed Q K W (ix4 b h d' s) := by
  rw [Tile.mixedOut_apply]
  have e1 : Tile.qcol x0 d = col Q b h d' := funext fun s => hq s
  have e2 : Tile.rows (k0_pay1 x1) = mat K b h :=
    funext fun s => funext fun e => (Tile.copyK_apply x1 s e).trans (hk s e)
  have e3 : Tile.rows (k0_pay2 x2) = mat W b h :=
    funext fun s => funext fun e => (Tile.copyV_apply x2 s e).trans (hv s e)
  rw [e1, e2, e3]
  rfl

/-! ## What each point writes back -/

/-- The scores array of the arguments as the region finds them. -/
abbrev scoresOf (c : Dev nD) : S4x8x512x512.Idx → EReal := scores (V m c main_arg0) (V m c main_arg1)

/-- The mixed array of the arguments as the region finds them. -/
abbrev mixedOf (c : Dev nD) : S4x8x512x2048.Idx → EReal := mixed (V m c main_arg0) (V m c main_arg1) (V m c main_arg2)

/-- Point t writes back block t of the scores array. -/
theorem scores_flushed (c : Dev nD) (t : Fin cfg0.N) :
    (dats m 0 c).flushed 4 t = ((cfg0.win 4).blk t).view.read (Elt Ideal) (scoresOf m c) := by
  rw [Value.flushed4, Point.scores_at]
  obtain ⟨-, -, -, -, ⟨g3, -⟩⟩ := idx_facts t
  funext y
  have y0 : (y 0).val < 1 := (y 0).isLt
  have y1 : (y 1).val < 1 := (y 1).isLt
  have y2 : (y 2).val < 256 := (y 2).isLt
  have y3 : (y 3).val < 512 := (y 3).isLt
  have i0 : ((((cfg0.win 4).blk t).view.emb y) 0).val = win0_4.index t (0 : Fin 4) := by
    show win0_4.index t (0 : Fin 4) * 1 + 1 * (y 0).val = _; omega
  have i1 : ((((cfg0.win 4).blk t).view.emb y) 1).val = win0_4.index t (1 : Fin 4) := by
    show win0_4.index t (1 : Fin 4) * 1 + 1 * (y 1).val = _; omega
  have i2 : ((((cfg0.win 4).blk t).view.emb y) 2).val = win0_4.index t (2 : Fin 4) * 256 + (y 2).val := by
    show win0_4.index t (2 : Fin 4) * 256 + 1 * (y 2).val = _; omega
  have i3 : ((((cfg0.win 4).blk t).view.emb y) 3).val = (y 3).val := by
    show win0_4.index t (3 : Fin 4) * 512 + 1 * (y 3).val = _; omega
  show k0_pay4 (iblk m c 0 t) (k0_pay1 (iblk m c 1 t)) y = scoresOf m c (((cfg0.win 4).blk t).view.emb y)
  refine (congrArg (k0_pay4 (iblk m c 0 t) (k0_pay1 (iblk m c 1 t))) (eq_ix4 (n0 := 1) (n1 := 1) (n2 := 256) (n3 := 512) y)).trans ?_
  refine Eq.trans ?_ (congrArg (scoresOf m c)
    (eq_ix4 (n0 := 4) (n1 := 8) (n2 := 512) (n3 := 512) (((cfg0.win 4).blk t).view.emb y))).symm
  rw [show ((((cfg0.win 4).blk t).view.emb y) 3 : Fin 512) = (⟨(y 3).val, y3⟩ : Fin 512) from Fin.ext i3]
  exact scores_meet (V m c main_arg0) (V m c main_arg1) (iblk m c 0 t) (iblk m c 1 t) (y 0) (y 1) (y 2) (y 3) _ _ _
    (fun s => qblock_apply m c t s (y 2) _ i0 i1 rfl i2)
    (fun s e => kblock_apply m c t s e _ i0 i1 rfl rfl)

/-- Point t writes back block t of the mixed array. -/
theorem mixed_flushed (c : Dev nD) (t : Fin cfg0.N) :
    (dats m 0 c).flushed 3 t = ((cfg0.win 3).blk t).view.read (Elt Ideal) (mixedOf m c) := by
  rw [Value.flushed3, Point.mixed_at]
  obtain ⟨-, -, -, ⟨g0, g1, g2, g3⟩, -⟩ := idx_facts t
  funext y
  have y0 : (y 0).val < 1 := (y 0).isLt
  have y1 : (y 1).val < 1 := (y 1).isLt
  have y2 : (y 2).val < 256 := (y 2).isLt
  have y3 : (y 3).val < 2048 := (y 3).isLt
  have i0 : ((((cfg0.win 3).blk t).view.emb y) 0).val = win0_4.index t (0 : Fin 4) := by
    show win0_3.index t (0 : Fin 4) * 1 + 1 * (y 0).val = _; omega
  have i1 : ((((cfg0.win 3).blk t).view.emb y) 1).val = win0_4.index t (1 : Fin 4) := by
    show win0_3.index t (1 : Fin 4) * 1 + 1 * (y 1).val = _; omega
  have i2 : ((((cfg0.win 3).blk t).view.emb y) 2).val = win0_4.index t (2 : Fin 4) * 256 + (y 2).val := by
    show win0_3.index t (2 : Fin 4) * 256 + 1 * (y 2).val = _; omega
  have i3 : ((((cfg0.win 3).blk t).view.emb y) 3).val = (y 3).val := by
    show win0_3.index t (3 : Fin 4) * 2048 + 1 * (y 3).val = _; omega
  show k0_pay5 (iblk m c 0 t) (k0_pay1 (iblk m c 1 t)) (k0_pay2 (iblk m c 2 t)) y
    = mixedOf m c (((cfg0.win 3).blk t).view.emb y)
  refine (congrArg (k0_pay5 (iblk m c 0 t) (k0_pay1 (iblk m c 1 t)) (k0_pay2 (iblk m c 2 t)))
    (eq_ix4 (n0 := 1) (n1 := 1) (n2 := 256) (n3 := 2048) y)).trans ?_
  refine Eq.trans ?_ (congrArg (mixedOf m c)
    (eq_ix4 (n0 := 4) (n1 := 8) (n2 := 512) (n3 := 2048) (((cfg0.win 3).blk t).view.emb y))).symm
  rw [show ((((cfg0.win 3).blk t).view.emb y) 3 : Fin 2048) = (⟨(y 3).val, y3⟩ : Fin 2048) from Fin.ext i3]
  exact mixed_meet (V m c main_arg0) (V m c main_arg1) (V m c main_arg2) (iblk m c 0 t) (iblk m c 1 t) (iblk m c 2 t)
    (y 0) (y 1) (y 2) (y 3) _ _ _
    (fun s => qblock_apply m c t s (y 2) _ i0 i1 rfl i2)
    (fun s e => kblock_apply m c t s e _ i0 i1 rfl rfl)
    (fun s e => vblock_apply m c t s e _ i0 i1 rfl rfl)

/-! ## The blocks tile the arrays -/

/-- An index of the scores array is in point t's block iff each coordinate is in the block's range on its axis. -/
theorem mem_scores_block (t : Fin cfg0.N) (i : S4x8x512x512.Idx) :
    i ∈ ((cfg0.win 4).blk t).view.set ↔ ∀ a : Fin 4, win0_4.index t a * S1x1x256x512.size a ≤ (i a).val
      ∧ (i a).val < win0_4.index t a * S1x1x256x512.size a + S1x1x256x512.size a := by
  show i ∈ ((View.whole main_v0_1).slice (win0_4.rect t)).set ↔ _
  rw [View.set_slice_whole, Rect.mem_set_unit]
  exact Iff.rfl

/-- An index of the mixed array is in point t's block iff each coordinate is in the block's range on its axis. -/
theorem mem_mixed_block (t : Fin cfg0.N) (i : S4x8x512x2048.Idx) :
    i ∈ ((cfg0.win 3).blk t).view.set ↔ ∀ a : Fin 4, win0_3.index t a * S1x1x256x2048.size a ≤ (i a).val
      ∧ (i a).val < win0_3.index t a * S1x1x256x2048.size a + S1x1x256x2048.size a := by
  show i ∈ ((View.whole main_v0_0).slice (win0_3.rect t)).set ↔ _
  rw [View.set_slice_whole, Rect.mem_set_unit]
  exact Iff.rfl

/-- Every index of the scores array is in some point's block. -/
theorem scores_cover (i : S4x8x512x512.Idx) :
    ∃ t : Fin cfg0.N, (cfg0.win 4).flush t = true ∧ i ∈ ((cfg0.win 4).blk t).view.set := by
  have b0 : (i 0).val < 4 := (i 0).isLt
  have b1 : (i 1).val < 8 := (i 1).isLt
  have b2 : (i 2).val < 512 := (i 2).isLt
  have b3 : (i 3).val < 512 := (i 3).isLt
  obtain ⟨t, q0, q1, q2⟩ := idx_onto ⟨(i 0).val, b0⟩ ⟨(i 1).val, b1⟩ ⟨(i 2).val / 256, by omega⟩
  obtain ⟨-, -, -, -, ⟨g3, -⟩⟩ := idx_facts t
  refine ⟨t, flush0_4 t, ?_⟩
  rw [mem_scores_block]
  intro a
  match a with
  | ⟨0, _⟩ => show win0_4.index t (0 : Fin 4) * 1 ≤ (i 0).val ∧ (i 0).val < win0_4.index t (0 : Fin 4) * 1 + 1
              dsimp only at q0; omega
  | ⟨1, _⟩ => show win0_4.index t (1 : Fin 4) * 1 ≤ (i 1).val ∧ (i 1).val < win0_4.index t (1 : Fin 4) * 1 + 1
              dsimp only at q1; omega
  | ⟨2, _⟩ => show win0_4.index t (2 : Fin 4) * 256 ≤ (i 2).val ∧ (i 2).val < win0_4.index t (2 : Fin 4) * 256 + 256
              dsimp only at q2; omega
  | ⟨3, _⟩ => show win0_4.index t (3 : Fin 4) * 512 ≤ (i 3).val ∧ (i 3).val < win0_4.index t (3 : Fin 4) * 512 + 512
              omega

/-- Every index of the mixed array is in some point's block. -/
theorem mixed_cover (i : S4x8x512x2048.Idx) :
    ∃ t : Fin cfg0.N, (cfg0.win 3).flush t = true ∧ i ∈ ((cfg0.win 3).blk t).view.set := by
  have b0 : (i 0).val < 4 := (i 0).isLt
  have b1 : (i 1).val < 8 := (i 1).isLt
  have b2 : (i 2).val < 512 := (i 2).isLt
  have b3 : (i 3).val < 2048 := (i 3).isLt
  obtain ⟨t, q0, q1, q2⟩ := idx_onto ⟨(i 0).val, b0⟩ ⟨(i 1).val, b1⟩ ⟨(i 2).val / 256, by omega⟩
  obtain ⟨-, -, -, ⟨g0, g1, g2, g3⟩, -⟩ := idx_facts t
  refine ⟨t, flush0_3 t, ?_⟩
  rw [mem_mixed_block]
  intro a
  match a with
  | ⟨0, _⟩ => show win0_3.index t (0 : Fin 4) * 1 ≤ (i 0).val ∧ (i 0).val < win0_3.index t (0 : Fin 4) * 1 + 1
              dsimp only at q0; omega
  | ⟨1, _⟩ => show win0_3.index t (1 : Fin 4) * 1 ≤ (i 1).val ∧ (i 1).val < win0_3.index t (1 : Fin 4) * 1 + 1
              dsimp only at q1; omega
  | ⟨2, _⟩ => show win0_3.index t (2 : Fin 4) * 256 ≤ (i 2).val ∧ (i 2).val < win0_3.index t (2 : Fin 4) * 256 + 256
              dsimp only at q2; omega
  | ⟨3, _⟩ => show win0_3.index t (3 : Fin 4) * 2048 ≤ (i 3).val ∧ (i 3).val < win0_3.index t (3 : Fin 4) * 2048 + 2048
              omega

/-! ## The arrays after the run -/

theorem scores_final (c : Dev nD) : (dats m 0 c).arrAt 4 cfg0.N = scoresOf m c :=
  (dats m 0 c).arrAt_eq_of_cover 4 (scoresOf m c) (fun t _ => scores_flushed m c t) scores_cover

theorem mixed_final (c : Dev nD) : (dats m 0 c).arrAt 3 cfg0.N = mixedOf m c :=
  (dats m 0 c).arrAt_eq_of_cover 3 (mixedOf m c) (fun t _ => mixed_flushed m c t) mixed_cover

/-- The run, read: both result arrays at the specification's functions of the arguments as launched, the arguments
    unchanged. -/
theorem run : θ_run defs (onTc (τ := τ) (main (F := Ideal))) ⟨m, fun _ => 0, ρ⟩ fun r => ∀ c : Dev nD,
      r.2.mem ((c : Thread nD τ).loc main_v0_0)
        = mixed (m ((c : Thread nD τ).loc main_arg0)) (m ((c : Thread nD τ).loc main_arg1)) (m ((c : Thread nD τ).loc main_arg2))
      ∧ r.2.mem ((c : Thread nD τ).loc main_v0_1)
        = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (mixed_final m c), (h c).2.1.trans (scores_final m c), (h c).2.2⟩)
    (Value.run_blocks m ρ)

end Cert.KernelIdeal.Whole

end
-- ==== Proof.RefValue.lean ====
/-
  The reference program's two results are the specification's two functions of its arguments.

  Read one operation at a time at an index (b, h, d, ·): the first contraction sums over the shared axis s, the product with
  the broadcast scale gives the score row; the row maximum is a fold of max from the −∞ word's value, joined once more with
  that value, which changes nothing; the exponentials are summed from the zero word; the quotient is the softmax weight; the
  second contraction sums the weights against row s of v.
-/
import proofs.«143725_j13554916786722_2_alg».proof.Proof.Gen.ReferenceIdeal.Read
import proofs.«143725_j13554916786722_2_alg».proof.Proof.Spec

noncomputable section

open scoped BigOperators

namespace Cert.ReferenceIdeal.RefValue

open Cert.ReferenceIdeal Cert.ReferenceIdeal.Gen Cert.ReferenceIdeal.Read Cert.Attn Cert.SoftmaxRows
open Idealize.ShloMosaic Idealize.ShloMosaic.ValueIdx

variable (x0 x1 x2 : (⟨S4x8x2048x512, .f32⟩ : BufTy).Contents (Elt Ideal))

/-! ## The printed index functions at explicit coordinates -/

theorem l0 (b : Fin 4) (h : Fin 8) (d e : Fin 512) (k : Fin 2048) : lidx_main_v0 (ix4 b h d e) k = ix4 b h k d :=
  funext fun a => Fin.ext (by match a with | ⟨0, _⟩ => rfl | ⟨1, _⟩ => rfl | ⟨2, _⟩ => rfl | ⟨3, _⟩ => rfl)
theorem r0 (b : Fin 4) (h : Fin 8) (d e : Fin 512) (k : Fin 2048) : ridx_main_v0 (ix4 b h d e) k = ix4 b h k e :=
  funext fun a => Fin.ext (by match a with | ⟨0, _⟩ => rfl | ⟨1, _⟩ => rfl | ⟨2, _⟩ => rfl | ⟨3, _⟩ => rfl)
theorem i7 (b : Fin 4) (h : Fin 8) (d e : Fin 512) : idx_main_v7 (ix4 b h d e) = ix4 b h d (0 : Fin 1) :=
  funext fun a => Fin.ext (by match a with | ⟨0, _⟩ => rfl | ⟨1, _⟩ => rfl | ⟨2, _⟩ => rfl | ⟨3, _⟩ => rfl)
theorem i6 (b : Fin 4) (h : Fin 8) (d : Fin 512) (z : Fin 1) : idx_main_v6 (ix4 b h d z) = ix3 b h d :=
  funext fun a => Fin.ext (by match a with | ⟨0, _⟩ => rfl | ⟨1, _⟩ => rfl | ⟨2, _⟩ => rfl)
theorem i12 (b : Fin 4) (h : Fin 8) (d e : Fin 512) : idx_main_v12 (ix4 b h d e) = ix4 b h d (0 : Fin 1) :=
  funext fun a => Fin.ext (by match a with | ⟨0, _⟩ => rfl | ⟨1, _⟩ => rfl | ⟨2, _⟩ => rfl | ⟨3, _⟩ => rfl)
theorem i11 (b : Fin 4) (h : Fin 8) (d : Fin 512) (z : Fin 1) : idx_main_v11 (ix4 b h d z) = ix3 b h d :=
  funext fun a => Fin.ext (by match a with | ⟨0, _⟩ => rfl | ⟨1, _⟩ => rfl | ⟨2, _⟩ => rfl)
theorem i10 (b : Fin 4) (h : Fin 8) (d : Fin 512) (k : Fin 512) : idx_main_v10 (ix3 b h d) k = ix4 b h d k :=
  funext fun a => Fin.ext (by match a with | ⟨0, _⟩ => rfl | ⟨1, _⟩ => rfl | ⟨2, _⟩ => rfl | ⟨3, _⟩ => rfl)
theorem l14 (b : Fin 4) (h : Fin 8) (d : Fin 512) (s : Fin 2048) (k : Fin 512) : lidx_main_v14 (ix4 b h d s) k = ix4 b h d k :=
  funext fun a => Fin.ext (by match a with | ⟨0, _⟩ => rfl | ⟨1, _⟩ => rfl | ⟨2, _⟩ => rfl | ⟨3, _⟩ => rfl)
theorem r14 (b : Fin 4) (h : Fin 8) (d : Fin 512) (s : Fin 2048) (k : Fin 512) : ridx_main_v14 (ix4 b h d s) k = ix4 b h s k :=
  funext fun a => Fin.ext (by match a with | ⟨0, _⟩ => rfl | ⟨1, _⟩ => rfl | ⟨2, _⟩ => rfl | ⟨3, _⟩ => rfl)

/-! ## The scores -/

/-- The score row of batch b, head h, column d, as the specification spells it. -/
abbrev zrow (b : Fin 4) (h : Fin 8) (d : Fin 512) : Fin 512 → EReal := scoreRow (col x0 b h d) (mat x1 b h)

theorem scores_entry (b : Fin 4) (h : Fin 8) (d e : Fin 512) :
    val_main_v2 (F := Ideal) x0 x1 (ix4 b h d e) = zrow x0 x1 b h d e := by
  rw [val_main_v2_apply, val_main_v0_apply, val_main_v1_apply, val_main_cst_apply]
  simp only [l0, r0]
  rfl

/-! ## The row maximum -/

theorem hred : S4x8x512x512.Reduces [3] S4x8x512 := by decide

/-- The reduced index (b, h, d) with the last coordinate put back. -/
theorem lift4 (b : Fin 4) (h : Fin 8) (d : Fin 512) (k : Fin (S4x8x512x512.size 3)) :
    hred.lift (ix3 b h d) k = ix4 b h d (⟨k.val, k.isLt⟩ : Fin 512) := by
  funext c; apply Fin.ext
  fin_cases c <;> rfl

theorem top_entry (b : Fin 4) (h : Fin 8) (d : Fin 512) :
    val_main_v3 (F := Ideal) x0 x1 (ix3 b h d) = top (zrow x0 x1 b h d) := by
  unfold val_main_v3
  rw [Host.reduce_eq_fold_single FloatOps.maximumf _ _ reducesTo_S4x8x512x512_S4x8x512_d3 hred h_S_,
    show (val_main_v2 (F := Ideal) x0 x1 ∘ hred.lift (ix3 b h d)) = zrow x0 x1 b h d from
      funext fun k => (congrArg (val_main_v2 (F := Ideal) x0 x1) (lift4 b h d k)).trans (scores_entry x0 x1 b h d _)]
  rfl

theorem shift_entry (b : Fin 4) (h : Fin 8) (d e : Fin 512) :
    val_main_v7 (F := Ideal) x0 x1 (ix4 b h d e) = top (zrow x0 x1 b h d) := by
  rw [val_main_v7_apply, i7, val_main_v6_apply, i6, val_main_v5_apply, val_main_v4_apply, val_main_cst_1_apply, top_entry]
  exact join_top _

/-! ## The weights -/

theorem numer_entry (b : Fin 4) (h : Fin 8) (d e : Fin 512) :
    val_main_v9 (F := Ideal) x0 x1 (ix4 b h d e) = Ideal.exp (zrow x0 x1 b h d e - top (zrow x0 x1 b h d)) := by
  rw [val_main_v9_apply, val_main_v8_apply, scores_entry, shift_entry]
  rfl

theorem denom_entry (b : Fin 4) (h : Fin 8) (d e : Fin 512) :
    val_main_v12 (F := Ideal) x0 x1 (ix4 b h d e) = ∑ j : Fin 512, Ideal.exp (zrow x0 x1 b h d j - top (zrow x0 x1 b h d)) := by
  rw [val_main_v12_apply, i12, val_main_v11_apply, i11, val_main_v10_apply, val_main_cst_2_apply]
  simp only [i10, numer_entry]
  show Ideal.ofBits .f32 0x00000000#32 + _ = _
  rw [Ideal.ofBits_zero_f32, zero_add]

theorem weight_entry (b : Fin 4) (h : Fin 8) (d e : Fin 512) :
    val_main_v13 (F := Ideal) x0 x1 (ix4 b h d e) = weight (zrow x0 x1 b h d) e := by
  rw [val_main_v13_apply, numer_entry, denom_entry]
  rfl

/-! ## The two results -/

theorem scores_eq : val_main_v2 (F := Ideal) x0 x1 = scores x0 x1 := by
  funext i
  obtain ⟨b, h, d, e, rfl⟩ : ∃ (b : Fin 4) (h : Fin 8) (d e : Fin 512), i = ix4 b h d e := ⟨i 0, i 1, i 2, i 3, eq_ix4 i⟩
  exact scores_entry x0 x1 b h d e

theorem mixed_eq : val_main_v14 (F := Ideal) x0 x1 x2 = mixed x0 x1 x2 := by
  funext i
  obtain ⟨b, h, d, s, rfl⟩ : ∃ (b : Fin 4) (h : Fin 8) (d : Fin 512) (s : Fin 2048), i = ix4 b h d s :=
    ⟨i 0, i 1, i 2, i 3, eq_ix4 i⟩
  rw [val_main_v14_apply]
  simp only [l14, r14, weight_entry]
  rfl

end Cert.ReferenceIdeal.RefValue

end
-- ==== Proof.lean ====
/-
  The certificate: an attention over the embedding axis, computed tile by tile, against its plain array form.

  For q, k, v of shape [4, 8, 2048, 512] both programs return the scores (Σ_s q(b,h,s,d) · k(b,h,s,e)) · c at (b,h,d,e) and, at
  (b,h,d,s), the softmax of each score row applied to v: Σ_e w(e) · v(b,h,s,e). The tiled program walks a grid over (batch,
  head, column tile): at each point it stages 256 columns of q's (b, h) matrix and the whole (b, h) matrices of k and v — the
  latter two copied, at the first tile of each (b, h), into two buffers it keeps across the two tiles — and writes back the
  matching 256 rows of both results. A score row and its softmax depend on ONE column of q and on the (b, h) matrices of k and
  v only, so each tile is the whole array's function read through the point's block, and the 64 blocks tile each result.
  Over the extended reals the two programs then compute the same term entry by entry: the same sums over the same index
  sets, the same scale word, the same shift (a fold of max from −∞; the plain form joins it once more with −∞, which changes
  nothing), the same exponentials, the same quotient; a change of float format is the identity. No finiteness is used.

  The three frames are the generated runs; the idealization rewrote nothing.
-/
import proofs.«143725_j13554916786722_2_alg».proof.Defs
import proofs.«143725_j13554916786722_2_alg».proof.Proof.Gen.Kernel
import proofs.«143725_j13554916786722_2_alg».proof.Proof.Gen.Kernel.Frame
import proofs.«143725_j13554916786722_2_alg».proof.Proof.Gen.KernelIdeal
import proofs.«143725_j13554916786722_2_alg».proof.Proof.Gen.KernelIdeal.Frame
import proofs.«143725_j13554916786722_2_alg».proof.Proof.Gen.KernelIdeal.Value
import proofs.«143725_j13554916786722_2_alg».proof.Proof.Gen.ReferenceIdeal
import proofs.«143725_j13554916786722_2_alg».proof.Proof.Gen.ReferenceIdeal.Run
import proofs.«143725_j13554916786722_2_alg».proof.Proof.Gen.ReferenceIdeal.Read
import proofs.«143725_j13554916786722_2_alg».proof.Proof.Gen.Pre_finite_inputs
import proofs.«143725_j13554916786722_2_alg».proof.Proof.Whole
import proofs.«143725_j13554916786722_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the mixed array and the scores array of the same arguments. -/
theorem algebraic : Cert.algebraic_KernelIdeal_ReferenceIdeal := by
  intro m ρ m' ρ' _ hagree
  refine ⟨fun c => Cert.Attn.mixed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefValue.mixed_eq, (hagree c).1, (hagree c).2.1,
      (hagree c).2.2]
  · rw [Cert.ReferenceIdeal.Read.val_main_v2_eq, Cert.ReferenceIdeal.RefValue.scores_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
